-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S64x128 : Shape := ⟨2, ![64, 128]⟩
abbrev S64 : Shape := ⟨1, ![64]⟩
abbrev S32x64 : Shape := ⟨2, ![32, 64]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32x64 .f32) (main_arg6 : FVec F S32 .f32) (main_arg7 : FVec F S32x64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S32x64 .f32 := Host.absf main_arg5
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x64 .f32 := Host.absf main_arg7
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  main_v33

def fn {F : FTy → Type} [FloatOps F] (main_arg0 : FVec F S100000x128 .f32) (main_arg1 : IVec S2x600000 32) (main_arg2 : FVec F S64x128 .f32) (main_arg3 : FVec F S64 .f32) (main_arg4 : FVec F S64x128 .f32) (main_arg5 : FVec F S32x64 .f32) (main_arg6 : FVec F S32 .f32) (main_arg7 : FVec F S32x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_v13 main_v16
-- ==== Kernel.lean ====
abbrev S100000x128 : Shape := ⟨2, ![100000, 128]⟩
abbrev S2x600000 : Shape := ⟨2, ![2, 600000]⟩
abbrev S64x128 : Shape := ⟨2, ![64, 128]⟩
abbrev S64 : Shape := ⟨1, ![64]⟩
abbrev S32x64 : Shape := ⟨2, ![32, 64]⟩
abbrev S32 : Shape := ⟨1, ![32]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S100000x1 : Shape := ⟨2, ![100000, 1]⟩
abbrev S128x64 : Shape := ⟨2, ![128, 64]⟩
abbrev S128x128 : Shape := ⟨2, ![128, 128]⟩
abbrev S10000x128 : Shape := ⟨2, ![10000, 128]⟩
abbrev S100000x64 : Shape := ⟨2, ![100000, 64]⟩
abbrev S600000x64 : Shape := ⟨2, ![600000, 64]⟩
abbrev S10000x64 : Shape := ⟨2, ![10000, 64]⟩
abbrev S1x64 : Shape := ⟨2, ![1, 64]⟩
abbrev S64x32 : Shape := ⟨2, ![64, 32]⟩
abbrev S64x64 : Shape := ⟨2, ![64, 64]⟩
abbrev S100000x32 : Shape := ⟨2, ![100000, 32]⟩
abbrev S600000x32 : Shape := ⟨2, ![600000, 32]⟩
abbrev S10000x32 : Shape := ⟨2, ![10000, 32]⟩
abbrev S1x32 : Shape := ⟨2, ![1, 32]⟩

abbrev nBuf : Space → Nat
  | .hbm => 69
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S32x64, .f32⟩
  | .hbm, ⟨6, _⟩ => ⟨S32, .f32⟩
  | .hbm, ⟨7, _⟩ => ⟨S32x64, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .f32⟩
  | .hbm, ⟨13, _⟩ => ⟨S600000, .f32⟩
  | .hbm, ⟨14, _⟩ => ⟨S_, .f32⟩
  | .hbm, ⟨15, _⟩ => ⟨S100000, .f32⟩
  | .hbm, ⟨16, _⟩ => ⟨S600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S128x64, .f32⟩
  | .hbm, ⟨26, _⟩ => ⟨S128x64, .f32⟩
  | .hbm, ⟨27, _⟩ => ⟨S128x128, .f32⟩
  | .hbm, ⟨28, _⟩ => ⟨S100000x128, .f32⟩
  | .hbm, ⟨29, _⟩ => ⟨S100000x64, .f32⟩
  | .hbm, ⟨30, _⟩ => ⟨S100000x64, .f32⟩
  | .hbm, ⟨31, _⟩ => ⟨S_, .i32⟩
  | .hbm, ⟨32, _⟩ => ⟨S600000, .i32⟩
  | .hbm, ⟨33, _⟩ => ⟨S600000, .i1⟩
  | .hbm, ⟨34, _⟩ => ⟨S_, .i32⟩
  | .hbm, ⟨35, _⟩ => ⟨S600000, .i32⟩
  | .hbm, ⟨36, _⟩ => ⟨S600000, .i32⟩
  | .hbm, ⟨37, _⟩ => ⟨S600000, .i32⟩
  | .hbm, ⟨38, _⟩ => ⟨S600000x1, .i32⟩
  | .hbm, ⟨39, _⟩ => ⟨S600000x64, .f32⟩
  | .hbm, ⟨40, _⟩ => ⟨S_, .f32⟩
  | .hbm, ⟨41, _⟩ => ⟨S100000x64, .f32⟩
  | .hbm, ⟨42, _⟩ => ⟨S600000x1, .i32⟩
  | .hbm, ⟨43, _⟩ => ⟨S100000x64, .f32⟩
  | .hbm, ⟨44, _⟩ => ⟨S100000x64, .f32⟩
  | .hbm, ⟨45, _⟩ => ⟨S100000x64, .f32⟩
  | .hbm, ⟨46, _⟩ => ⟨S100000x64, .f32⟩
  | .hbm, ⟨47, _⟩ => ⟨S64x32, .f32⟩
  | .hbm, ⟨48, _⟩ => ⟨S64x32, .f32⟩
  | .hbm, ⟨49, _⟩ => ⟨S64x64, .f32⟩
  | .hbm, ⟨50, _⟩ => ⟨S100000x64, .f32⟩
  | .hbm, ⟨51, _⟩ => ⟨S100000x32, .f32⟩
  | .hbm, ⟨52, _⟩ => ⟨S100000x32, .f32⟩
  | .hbm, ⟨53, _⟩ => ⟨S_, .i32⟩
  | .hbm, ⟨54, _⟩ => ⟨S600000, .i32⟩
  | .hbm, ⟨55, _⟩ => ⟨S600000, .i1⟩
  | .hbm, ⟨56, _⟩ => ⟨S_, .i32⟩
  | .hbm, ⟨57, _⟩ => ⟨S600000, .i32⟩
  | .hbm, ⟨58, _⟩ => ⟨S600000, .i32⟩
  | .hbm, ⟨59, _⟩ => ⟨S600000, .i32⟩
  | .hbm, ⟨60, _⟩ => ⟨S600000x1, .i32⟩
  | .hbm, ⟨61, _⟩ => ⟨S600000x32, .f32⟩
  | .hbm, ⟨62, _⟩ => ⟨S_, .f32⟩
  | .hbm, ⟨63, _⟩ => ⟨S100000x32, .f32⟩
  | .hbm, ⟨64, _⟩ => ⟨S600000x1, .i32⟩
  | .hbm, ⟨65, _⟩ => ⟨S100000x32, .f32⟩
  | .hbm, ⟨66, _⟩ => ⟨S100000x32, .f32⟩
  | .hbm, ⟨67, _⟩ => ⟨S100000x32, .f32⟩
  | .hbm, ⟨68, _⟩ => ⟨S100000x32, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S64x64, .f32⟩
  | .local _ .vmem, ⟨15, _⟩ => ⟨S10000x64, .f32⟩
  | .local _ .vmem, ⟨16, _⟩ => ⟨S10000x64, .f32⟩
  | .local _ .vmem, ⟨17, _⟩ => ⟨S10000x32, .f32⟩
  | .local _ .vmem, ⟨18, _⟩ => ⟨S10000x32, .f32⟩
  | .local _ .vmem, ⟨19, _⟩ => ⟨S10000x32, .f32⟩
  | .local _ .vmem, ⟨20, _⟩ => ⟨S10000x32, .f32⟩
  | .local _ .vmem, ⟨21, _⟩ => ⟨S32, .f32⟩
  | .local _ .vmem, ⟨22, _⟩ => ⟨S10000x32, .f32⟩
  | .local _ .vmem, ⟨23, _⟩ => ⟨S10000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_5 : Ref sig .tc := ⟨.hbm, 53, rfl⟩
abbrev main_v38 : Ref sig .tc := ⟨.hbm, 54, rfl⟩
abbrev main_v39 : Ref sig .tc := ⟨.hbm, 55, rfl⟩
abbrev main_c_6 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S100000_S100000x1_0 : S100000.BroadcastsInDim S100000x1 (![0] : Fin 1 → Fin S100000x1.rank)
  transposes_S64x128_S128x64_1_0 : S64x128.Transposes [1, 0] S128x64
  concatenates_S128x64_S128x64_S128x128_d1 : Shape.Concatenates [S128x64, S128x64] S128x128 1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S100000x128_S100000x64_0_0 : S100000x128.Slices ![0, 0] S100000x64
  slices_S100000x128_S100000x64_0_64 : S100000x128.Slices ![0, 64] S100000x64
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  transposes_S32x64_S64x32_1_0 : S32x64.Transposes [1, 0] S64x32
  concatenates_S64x32_S64x32_S64x64_d1 : Shape.Concatenates [S64x32, S64x32] S64x64 1
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S100000x64_S100000x32_0_0 : S100000x64.Slices ![0, 0] S100000x32
  slices_S100000x64_S100000x32_0_32 : S100000x64.Slices ![0, 32] S100000x32
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S32_S32_0 : ∀ a, (![0] : Fin 1 → Nat) a + S32.size a ≤ S32.size a
  h_S32 : 0 < S32.numel
  shapeCasts_S32_S1x32 : S32.ShapeCasts S1x32
  broadcasts_S1x32_S10000x32 : S1x32.Broadcasts S10000x32
  scatter_S100000_S600000x1_S600000_n_0_0_1_wf : ScatterDims.WF S100000 S600000x1 S600000 [] [0] [0] 1
  dot_S10000x128_S128x128_S10000x128_1_0_0_1_n_n_wf : DotDims.WF S10000x128 S128x128 S10000x128 [1] [0] [0] [1] [] []
  gather_S100000x64_S600000x1_S600000x64_1_0_n_n_0_1_164_wf : GatherDims.WF S100000x64 S600000x1 S600000x64 [1] [0] [] [0] [] 1 ![1, 64]
  scatter_S100000x64_S600000x1_S600000x64_1_0_0_1_wf : ScatterDims.WF S100000x64 S600000x1 S600000x64 [1] [0] [0] 1
  dot_S10000x64_S64x64_S10000x64_1_0_0_1_n_n_wf : DotDims.WF S10000x64 S64x64 S10000x64 [1] [0] [0] [1] [] []
  gather_S100000x32_S600000x1_S600000x32_1_0_n_n_0_1_132_wf : GatherDims.WF S100000x32 S600000x1 S600000x32 [1] [0] [] [0] [] 1 ![1, 32]
  scatter_S100000x32_S600000x1_S600000x32_1_0_0_1_wf : ScatterDims.WF S100000x32 S600000x1 S600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x32.size a ≤ S100000x32.size a
  hwx3_1 : ∀ i : grid3.Coords, EltTy.bits .f32 = 32 ∨ (Rect.block (s := S100000x32) S10000x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S32.size a ≤ S32.size a
  hwx3_2 : ∀ i : grid3.Coords, EltTy.bits .f32 = 32 ∨ (Rect.block (s := S32) S32.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x32.size a ≤ S100000x32.size a
  hwx3_3 : ∀ i : grid3.Coords, EltTy.bits .f32 = 32 ∨ (Rect.block (s := S100000x32) S10000x32.size (cc3_transform_3 i) (hinb3_3 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x64_S600000x1_S600000x64_1_0_n_n_0_1_164 : GatherDims S100000x64 S600000x1 S600000x64 where
  offsetDims := [1]
  collapsedSliceDims := [0]
  operandBatchingDims := []
  startIndicesBatchingDims := []
  startIndexMap := [0]
  indexVectorDim := 1
  sliceSizes := ![1, 64]
  wf := gather_S100000x64_S600000x1_S600000x64_1_0_n_n_0_1_164_wf
def scatter_S100000x64_S600000x1_S600000x64_1_0_0_1 : ScatterDims S100000x64 S600000x1 S600000x64 where
  updateWindowDims := [1]
  insertedWindowDims := [0]
  scatterDimsToOperandDims := [0]
  indexVectorDim := 1
  wf := scatter_S100000x64_S600000x1_S600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x32_S600000x1_S600000x32_1_0_n_n_0_1_132 : GatherDims S100000x32 S600000x1 S600000x32 where
  offsetDims := [1]
  collapsedSliceDims := [0]
  operandBatchingDims := []
  startIndicesBatchingDims := []
  startIndexMap := [0]
  indexVectorDim := 1
  sliceSizes := ![1, 32]
  wf := gather_S100000x32_S600000x1_S600000x32_1_0_n_n_0_1_132_wf
def scatter_S100000x32_S600000x1_S600000x32_1_0_0_1 : ScatterDims S100000x32 S600000x1 S600000x32 where
  updateWindowDims := [1]
  insertedWindowDims := [0]
  scatterDimsToOperandDims := [0]
  indexVectorDim := 1
  wf := scatter_S100000x32_S600000x1_S600000x32_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v30) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v31) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v35) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v49) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v37) S10000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg6) S32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v50) S10000x32.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S64x128 : Shape := ⟨2, ![64, 128]⟩
abbrev S64 : Shape := ⟨1, ![64]⟩
abbrev S32x64 : Shape := ⟨2, ![32, 64]⟩
abbrev S32 : Shape := ⟨1, ![32]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S128x64 : Shape := ⟨2, ![128, 64]⟩
abbrev S100000x64 : Shape := ⟨2, ![100000, 64]⟩
abbrev S1x64 : Shape := ⟨2, ![1, 64]⟩
abbrev S600000x64 : Shape := ⟨2, ![600000, 64]⟩
abbrev S64x32 : Shape := ⟨2, ![64, 32]⟩
abbrev S100000x32 : Shape := ⟨2, ![100000, 32]⟩
abbrev S1x32 : Shape := ⟨2, ![1, 32]⟩

abbrev nBuf : Space → Nat
  | .hbm => 85
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x600000, .i32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S32x64, .f32⟩
  | .hbm, ⟨6, _⟩ => ⟨S32, .f32⟩
  | .hbm, ⟨7, _⟩ => ⟨S32x64, .f32⟩
  | .hbm, ⟨8, _⟩ => ⟨S1x600000, .i32⟩
  | .hbm, ⟨9, _⟩ => ⟨S600000, .i32⟩
  | .hbm, ⟨10, _⟩ => ⟨S1x600000, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S100000x128, .f32⟩
  | .hbm, ⟨23, _⟩ => ⟨S600000x1, .i32⟩
  | .hbm, ⟨24, _⟩ => ⟨S100000x128, .f32⟩
  | .hbm, ⟨25, _⟩ => ⟨S_, .f32⟩
  | .hbm, ⟨26, _⟩ => ⟨S600000, .f32⟩
  | .hbm, ⟨27, _⟩ => ⟨S_, .f32⟩
  | .hbm, ⟨28, _⟩ => ⟨S100000, .f32⟩
  | .hbm, ⟨29, _⟩ => ⟨S600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x64, .f32⟩
  | .hbm, ⟨38, _⟩ => ⟨S100000x64, .f32⟩
  | .hbm, ⟨39, _⟩ => ⟨S1x64, .f32⟩
  | .hbm, ⟨40, _⟩ => ⟨S100000x64, .f32⟩
  | .hbm, ⟨41, _⟩ => ⟨S100000x64, .f32⟩
  | .hbm, ⟨42, _⟩ => ⟨S128x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .f32⟩
  | .hbm, ⟨48, _⟩ => ⟨S1x600000, .i32⟩
  | .hbm, ⟨49, _⟩ => ⟨S600000, .i32⟩
  | .hbm, ⟨50, _⟩ => ⟨S1x600000, .i32⟩
  | .hbm, ⟨51, _⟩ => ⟨S600000, .i32⟩
  | .hbm, ⟨52, _⟩ => ⟨S_, .i32⟩
  | .hbm, ⟨53, _⟩ => ⟨S600000, .i32⟩
  | .hbm, ⟨54, _⟩ => ⟨S600000, .i1⟩
  | .hbm, ⟨55, _⟩ => ⟨S_, .i32⟩
  | .hbm, ⟨56, _⟩ => ⟨S600000, .i32⟩
  | .hbm, ⟨57, _⟩ => ⟨S600000, .i32⟩
  | .hbm, ⟨58, _⟩ => ⟨S600000, .i32⟩
  | .hbm, ⟨59, _⟩ => ⟨S600000x1, .i32⟩
  | .hbm, ⟨60, _⟩ => ⟨S600000x64, .f32⟩
  | .hbm, ⟨61, _⟩ => ⟨S_, .f32⟩
  | .hbm, ⟨62, _⟩ => ⟨S100000x64, .f32⟩
  | .hbm, ⟨63, _⟩ => ⟨S600000x1, .i32⟩
  | .hbm, ⟨64, _⟩ => ⟨S100000x64, .f32⟩
  | .hbm, ⟨65, _⟩ => ⟨S_, .f32⟩
  | .hbm, ⟨66, _⟩ => ⟨S600000, .f32⟩
  | .hbm, ⟨67, _⟩ => ⟨S_, .f32⟩
  | .hbm, ⟨68, _⟩ => ⟨S100000, .f32⟩
  | .hbm, ⟨69, _⟩ => ⟨S600000x1, .i32⟩
  | .hbm, ⟨70, _⟩ => ⟨S100000, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S100000x1, .f32⟩
  | .hbm, ⟨75, _⟩ => ⟨S100000x64, .f32⟩
  | .hbm, ⟨76, _⟩ => ⟨S100000x64, .f32⟩
  | .hbm, ⟨77, _⟩ => ⟨S64x32, .f32⟩
  | .hbm, ⟨78, _⟩ => ⟨S100000x32, .f32⟩
  | .hbm, ⟨79, _⟩ => ⟨S1x32, .f32⟩
  | .hbm, ⟨80, _⟩ => ⟨S100000x32, .f32⟩
  | .hbm, ⟨81, _⟩ => ⟨S100000x32, .f32⟩
  | .hbm, ⟨82, _⟩ => ⟨S64x32, .f32⟩
  | .hbm, ⟨83, _⟩ => ⟨S100000x32, .f32⟩
  | .hbm, ⟨84, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_4 : Ref sig .tc := ⟨.hbm, 52, rfl⟩
abbrev main_v36 : Ref sig .tc := ⟨.hbm, 53, rfl⟩
abbrev main_v37 : Ref sig .tc := ⟨.hbm, 54, rfl⟩
abbrev main_c_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S32x64_S64x32_1_0 : S32x64.Transposes [1, 0] S64x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x128_S128x64_S100000x64_1_0_0_1_n_n_wf : DotDims.WF S100000x128 S128x64 S100000x64 [1] [0] [0] [1] [] []
  gather_S100000x64_S600000x1_S600000x64_1_0_n_n_0_1_164_wf : GatherDims.WF S100000x64 S600000x1 S600000x64 [1] [0] [] [0] [] 1 ![1, 64]
  scatter_S100000x64_S600000x1_S600000x64_1_0_0_1_wf : ScatterDims.WF S100000x64 S600000x1 S600000x64 [1] [0] [0] 1
  dot_S100000x64_S64x32_S100000x32_1_0_0_1_n_n_wf : DotDims.WF S100000x64 S64x32 S100000x32 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S600000x1_S600000x64_1_0_n_n_0_1_164 : GatherDims S100000x64 S600000x1 S600000x64 where
  offsetDims := [1]
  collapsedSliceDims := [0]
  operandBatchingDims := []
  startIndicesBatchingDims := []
  startIndexMap := [0]
  indexVectorDim := 1
  sliceSizes := ![1, 64]
  wf := gather_S100000x64_S600000x1_S600000x64_1_0_n_n_0_1_164_wf
def scatter_S100000x64_S600000x1_S600000x64_1_0_0_1 : ScatterDims S100000x64 S600000x1 S600000x64 where
  updateWindowDims := [1]
  insertedWindowDims := [0]
  scatterDimsToOperandDims := [0]
  indexVectorDim := 1
  wf := scatter_S100000x64_S600000x1_S600000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.KernelRun.lean ====
/-
  The idealized kernel's run, with its result array named.

  The program is four pipelined regions among stretches of host operations. Its run is followed boundary by boundary:
  the contents of every buffer after the last region are one fold from the launch memory through the stretches and
  the regions' write-backs. Every weakly fair execution terminates without a fault in a state where each unscoped
  buffer holds that fold's value; read at the result array this names what the program returns, and read at the
  argument arrays it gives back the launch contents.
-/
import proofs.«145483_j81544249081903_2_alg».proof.Proof.Gen.KernelIdeal.Frame

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents and the argument arrays as launched. -/
theorem run_result : θ_run defs (onTc (τ := τ) (main (F := F))) ⟨m, fun _ => 0, ρ⟩ (fun r => ∀ c : Dev nD,
      r.2.mem ((c.tc : Thread nD τ).loc main_v50) = W8 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v50 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.KernelRun

end
-- ==== Proof.Stretches.lean ====
/-
  The host stretches of the idealized kernel, read as array functions.

  Between its four pipelined regions the program runs short straight lines of host operations. Each buffer a later
  region or stretch reads is written by exactly one operation of one stretch, so its contents after the stretch are
  one composed function of the buffers the stretch reads. Named here: the source and destination node numbers of the
  edges (rows 0 and 1 of the edge list), the destination numbers as a column of scatter indices, the source numbers with
  negative ones wrapped once by the node count as a column of gather indices, the column of reciprocal mean divisors
  (one over the larger of a node's incoming-edge count and one), the two weight matrices transposed and laid side by
  side, and the mean aggregation itself: gather the projected rows of the source nodes, add them into zeros by
  destination node, and scale each node's row by its reciprocal divisor.
-/
import proofs.«145483_j81544249081903_2_alg».proof.Proof.Gen.KernelIdeal.Frame
import Idealize.ShloMosaic.Lib.StableHlo.Run
import Idealize.ShloMosaic.PureOps.Ideal
import Idealize.ShloMosaic.PureOps.Ideal.Laws

set_option maxRecDepth 16384

noncomputable section

namespace Cert.KernelIdeal.Stretches

open Cert.KernelIdeal Cert.KernelIdeal.Gen
open Idealize.ShloMosaic Idealize.ShloMosaic.TcCoe Idealize.ShloMosaic.StableHlo Idealize.SL.Sem

/-! ## The pieces -/

/-- The edges' source node numbers: row 0 of the edge list. -/
def srcVec (e : IVec S2x600000 32) : IVec S600000 32 :=
  shapeCast _ (extractStridedSlice S1x600000 ![0, 0] e slices_S2x600000_S1x600000_0_0) shapeCasts_S1x600000_S600000

/-- The edges' destination node numbers: row 1 of the edge list. -/
def dstVec (e : IVec S2x600000 32) : IVec S600000 32 :=
  shapeCast _ (extractStridedSlice S1x600000 ![1, 0] e slices_S2x600000_S1x600000_1_0) shapeCasts_S1x600000_S600000

/-- One number per edge as a column of indices. -/
def asColumn (v : IVec S600000 32) : IVec S600000x1 32 := broadcastInDim S600000x1 ![0] bcast_S600000_S600000x1_0 v

/-- Row numbers for a gather: a negative number is wrapped once by the node count, then the column. -/
def wrapRows (v : IVec S600000 32) : IVec S600000x1 32 :=
  asColumn (select (cmpi .slt v (broadcastInDim S600000 ![] bcast_S_S600000 (constantI S_ 32 0#32)))
    (addi v (broadcastInDim S600000 ![] bcast_S_S600000 (constantI S_ 32 100000#32))) v)

/-- The column of reciprocal mean divisors: per node, one over the larger of its incoming-edge count (ones added into
    zeros by destination) and one. -/
def invDegree (d : IVec S600000 32) : FVec Ideal S100000x1 .f32 :=
  broadcastInDim S100000x1 ![0] bcast_S100000_S100000x1_0
    (Host.divf (broadcastInDim S100000 ![] bcast_S_S100000 (constant S_ .f32 0x3F800000#32))
      (maximumf (Host.scatterAdd scatter_S100000_S600000x1_S600000_n_0_0_1
          (broadcastInDim S100000 ![] bcast_S_S100000 (constant S_ .f32 0x00000000#32)) (asColumn d)
          (broadcastInDim S600000 ![] bcast_S_S600000 (constant S_ .f32 0x3F800000#32)))
        (broadcastInDim S100000 ![] bcast_S_S100000 (constant S_ .f32 0x3F800000#32))))

/-- Layer 1's two weight matrices, each transposed, side by side. -/
def weights1 (wl wr : FVec Ideal S64x128 .f32) : FVec Ideal S128x128 .f32 :=
  concatenate S128x128 1 [⟨S128x64, transpose S128x64 [1, 0] wl transposes_S64x128_S128x64_1_0⟩,
    ⟨S128x64, transpose S128x64 [1, 0] wr transposes_S64x128_S128x64_1_0⟩] concatenates_S128x64_S128x64_S128x128_d1

/-- Layer 2's two weight matrices, each transposed, side by side. -/
def weights2 (wl wr : FVec Ideal S32x64 .f32) : FVec Ideal S64x64 .f32 :=
  concatenate S64x64 1 [⟨S64x32, transpose S64x32 [1, 0] wl transposes_S32x64_S64x32_1_0⟩,
    ⟨S64x32, transpose S64x32 [1, 0] wr transposes_S32x64_S64x32_1_0⟩] concatenates_S64x32_S64x32_S64x64_d1

/-- Layer 1's mean aggregation of the projected rows (the left half of the projection's columns). -/
def meanAgg1 (p : FVec Ideal S100000x128 .f32) (s d : IVec S600000 32) (r : FVec Ideal S100000x1 .f32) : FVec Ideal S100000x64 .f32 :=
  mulf (Host.scatterAdd scatter_S100000x64_S600000x1_S600000x64_1_0_0_1
      (broadcastInDim S100000x64 ![] bcast_S_S100000x64 (constant S_ .f32 0x00000000#32)) (asColumn d)
      (Host.gather gather_S100000x64_S600000x1_S600000x64_1_0_n_n_0_1_164
        (extractStridedSlice S100000x64 ![0, 0] p slices_S100000x128_S100000x64_0_0) (wrapRows s)))
    (broadcastInDim S100000x64 ![0, 1] bcast_S100000x1_S100000x64_0_1 r)

/-- Layer 2's mean aggregation of the projected rows. -/
def meanAgg2 (p : FVec Ideal S100000x64 .f32) (s d : IVec S600000 32) (r : FVec Ideal S100000x1 .f32) : FVec Ideal S100000x32 .f32 :=
  mulf (Host.scatterAdd scatter_S100000x32_S600000x1_S600000x32_1_0_0_1
      (broadcastInDim S100000x32 ![] bcast_S_S100000x32 (constant S_ .f32 0x00000000#32)) (asColumn d)
      (Host.gather gather_S100000x32_S600000x1_S600000x32_1_0_n_n_0_1_132
        (extractStridedSlice S100000x32 ![0, 0] p slices_S100000x64_S100000x32_0_0) (wrapRows s)))
    (broadcastInDim S100000x32 ![0, 1] bcast_S100000x1_S100000x32_0_1 r)

/-- A buffer that no operation of the named stretch writes: each operation's written buffer differs from it. -/
macro "untouched" ops:ident : tactic => `(tactic|
  exact after_of_forall_not_mem _ _ (List.forall_iff_forall_mem.mp (by
    simp only [$ops:ident, List.Forall, nullary_writes, unary_writes, binary_writes, ternary_writes, quaternary_writes,
      reshape_writes, binaryIndexed_writes, Finset.mem_singleton]
    repeat' apply And.intro
    all_goals exact devRef_ne_of_ne (by decide))))

/-! ## Each stretch, from any starting contents -/

section
variable (W : Valuation τ sig (Elt Ideal))

theorem stretch0_v1 : after (hostOps0 (F := Ideal)) W (Proc.devRef .tc main_v1) = srcVec (W (Proc.devRef .tc main_arg1)) := by
  after_results; rfl
theorem stretch0_v3 : after (hostOps0 (F := Ideal)) W (Proc.devRef .tc main_v3) = dstVec (W (Proc.devRef .tc main_arg1)) := by
  after_results; rfl
theorem stretch0_v12 : after (hostOps0 (F := Ideal)) W (Proc.devRef .tc main_v12) = invDegree (dstVec (W (Proc.devRef .tc main_arg1))) := by
  after_results; rfl
theorem stretch0_v15 : after (hostOps0 (F := Ideal)) W (Proc.devRef .tc main_v15) = weights1 (W (Proc.devRef .tc main_arg2)) (W (Proc.devRef .tc main_arg4)) := by
  after_results; rfl

theorem stretch2_v34 : after (hostOps2 (F := Ideal)) W (Proc.devRef .tc main_v34) = weights2 (W (Proc.devRef .tc main_arg5)) (W (Proc.devRef .tc main_arg7)) := by
  after_results; rfl

theorem stretch1_v30 : after (hostOps1 (F := Ideal)) W (Proc.devRef .tc main_v30)
    = meanAgg1 (W (Proc.devRef .tc main_v16)) (W (Proc.devRef .tc main_v1)) (W (Proc.devRef .tc main_v3)) (W (Proc.devRef .tc main_v12)) := by
  after_results_simp <;> rfl
theorem stretch1_v18 : after (hostOps1 (F := Ideal)) W (Proc.devRef .tc main_v18)
    = extractStridedSlice S100000x64 ![0, 64] (W (Proc.devRef .tc main_v16)) slices_S100000x128_S100000x64_0_64 := by
  after_results
theorem stretch3_v49 : after (hostOps3 (F := Ideal)) W (Proc.devRef .tc main_v49)
    = meanAgg2 (W (Proc.devRef .tc main_v35)) (W (Proc.devRef .tc main_v1)) (W (Proc.devRef .tc main_v3)) (W (Proc.devRef .tc main_v12)) := by
  after_results_simp <;> rfl
theorem stretch3_v37 : after (hostOps3 (F := Ideal)) W (Proc.devRef .tc main_v37)
    = extractStridedSlice S100000x32 ![0, 32] (W (Proc.devRef .tc main_v35)) slices_S100000x64_S100000x32_0_32 := by
  after_results

/-! ## What a stretch leaves alone: a buffer none of its operations writes keeps its contents -/

theorem keep0_arg0 : after (hostOps0 (F := Ideal)) W (Proc.devRef .tc main_arg0) = W (Proc.devRef .tc main_arg0) := by untouched hostOps0
theorem keep0_arg3 : after (hostOps0 (F := Ideal)) W (Proc.devRef .tc main_arg3) = W (Proc.devRef .tc main_arg3) := by untouched hostOps0
theorem keep0_arg5 : after (hostOps0 (F := Ideal)) W (Proc.devRef .tc main_arg5) = W (Proc.devRef .tc main_arg5) := by untouched hostOps0
theorem keep0_arg6 : after (hostOps0 (F := Ideal)) W (Proc.devRef .tc main_arg6) = W (Proc.devRef .tc main_arg6) := by untouched hostOps0
theorem keep0_arg7 : after (hostOps0 (F := Ideal)) W (Proc.devRef .tc main_arg7) = W (Proc.devRef .tc main_arg7) := by untouched hostOps0
theorem keep1_v1 : after (hostOps1 (F := Ideal)) W (Proc.devRef .tc main_v1) = W (Proc.devRef .tc main_v1) := by untouched hostOps1
theorem keep1_v3 : after (hostOps1 (F := Ideal)) W (Proc.devRef .tc main_v3) = W (Proc.devRef .tc main_v3) := by untouched hostOps1
theorem keep1_v12 : after (hostOps1 (F := Ideal)) W (Proc.devRef .tc main_v12) = W (Proc.devRef .tc main_v12) := by untouched hostOps1
theorem keep1_arg3 : after (hostOps1 (F := Ideal)) W (Proc.devRef .tc main_arg3) = W (Proc.devRef .tc main_arg3) := by untouched hostOps1
theorem keep1_arg5 : after (hostOps1 (F := Ideal)) W (Proc.devRef .tc main_arg5) = W (Proc.devRef .tc main_arg5) := by untouched hostOps1
theorem keep1_arg6 : after (hostOps1 (F := Ideal)) W (Proc.devRef .tc main_arg6) = W (Proc.devRef .tc main_arg6) := by untouched hostOps1
theorem keep1_arg7 : after (hostOps1 (F := Ideal)) W (Proc.devRef .tc main_arg7) = W (Proc.devRef .tc main_arg7) := by untouched hostOps1
theorem keep2_v1 : after (hostOps2 (F := Ideal)) W (Proc.devRef .tc main_v1) = W (Proc.devRef .tc main_v1) := by untouched hostOps2
theorem keep2_v3 : after (hostOps2 (F := Ideal)) W (Proc.devRef .tc main_v3) = W (Proc.devRef .tc main_v3) := by untouched hostOps2
theorem keep2_v12 : after (hostOps2 (F := Ideal)) W (Proc.devRef .tc main_v12) = W (Proc.devRef .tc main_v12) := by untouched hostOps2
theorem keep2_v31 : after (hostOps2 (F := Ideal)) W (Proc.devRef .tc main_v31) = W (Proc.devRef .tc main_v31) := by untouched hostOps2
theorem keep2_arg6 : after (hostOps2 (F := Ideal)) W (Proc.devRef .tc main_arg6) = W (Proc.devRef .tc main_arg6) := by untouched hostOps2
theorem keep3_arg6 : after (hostOps3 (F := Ideal)) W (Proc.devRef .tc main_arg6) = W (Proc.devRef .tc main_arg6) := by untouched hostOps3

end

end Cert.KernelIdeal.Stretches

end
-- ==== Proof.Walks.lean ====
/-
  What each buffer holds at the boundaries of the idealized kernel's run.

  The run's contents at the eight boundaries (before and after each of the four regions) are a fold from the launch
  memory. A buffer that no later stretch writes and no later region has among its arrays keeps its contents from
  boundary to boundary, so: each argument array still holds its launch contents when a region or a stretch reads it; the
  edges' source numbers, destination numbers and the reciprocal-divisor column, computed by the first stretch, are
  still what that stretch left when the second and the fourth stretch read them; the side-by-side weights of each
  layer are what the stretch before their region computed from the launch contents of the weight arguments.
-/
import proofs.«145483_j81544249081903_2_alg».proof.Proof.Gen.KernelIdeal.Frame
import proofs.«145483_j81544249081903_2_alg».proof.Proof.Stretches

set_option maxRecDepth 16384

noncomputable section

namespace Cert.KernelIdeal.Walks

open Cert.KernelIdeal Cert.KernelIdeal.Gen Cert.KernelIdeal.Stretches
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

theorem W1_arg0 : W1 m ρ c (Proc.devRef .tc main_arg0) = m ((c : Thread nD τ).loc main_arg0) :=
  (keep0_arg0 (W0 m ρ c))
theorem W3_arg3 : W3 m ρ c (Proc.devRef .tc main_arg3) = m ((c : Thread nD τ).loc main_arg3) :=
  (((keep1_arg3 (W2 m ρ c)).trans (W2_of_ne m ρ c main_arg3 (by decide))).trans (keep0_arg3 (W0 m ρ c)))
theorem W4_arg5 : W4 m ρ c (Proc.devRef .tc main_arg5) = m ((c : Thread nD τ).loc main_arg5) :=
  ((((W4_of_ne m ρ c main_arg5 (by decide)).trans (keep1_arg5 (W2 m ρ c))).trans (W2_of_ne m ρ c main_arg5 (by decide))).trans (keep0_arg5 (W0 m ρ c)))
theorem W4_arg7 : W4 m ρ c (Proc.devRef .tc main_arg7) = m ((c : Thread nD τ).loc main_arg7) :=
  ((((W4_of_ne m ρ c main_arg7 (by decide)).trans (keep1_arg7 (W2 m ρ c))).trans (W2_of_ne m ρ c main_arg7 (by decide))).trans (keep0_arg7 (W0 m ρ c)))
theorem W7_arg6 : W7 m ρ c (Proc.devRef .tc main_arg6) = m ((c : Thread nD τ).loc main_arg6) :=
  (((((((keep3_arg6 (W6 m ρ c)).trans (W6_of_ne m ρ c main_arg6 (by decide))).trans (keep2_arg6 (W4 m ρ c))).trans (W4_of_ne m ρ c main_arg6 (by decide))).trans (keep1_arg6 (W2 m ρ c))).trans (W2_of_ne m ρ c main_arg6 (by decide))).trans (keep0_arg6 (W0 m ρ c)))
theorem W2_v1 : W2 m ρ c (Proc.devRef .tc main_v1) = srcVec (m ((c : Thread nD τ).loc main_arg1)) :=
  (W2_of_ne m ρ c main_v1 (by decide)).trans (stretch0_v1 (W0 m ρ c))
theorem W2_v3 : W2 m ρ c (Proc.devRef .tc main_v3) = dstVec (m ((c : Thread nD τ).loc main_arg1)) :=
  (W2_of_ne m ρ c main_v3 (by decide)).trans (stretch0_v3 (W0 m ρ c))
theorem W2_v12 : W2 m ρ c (Proc.devRef .tc main_v12) = invDegree (dstVec (m ((c : Thread nD τ).loc main_arg1))) :=
  (W2_of_ne m ρ c main_v12 (by decide)).trans (stretch0_v12 (W0 m ρ c))
theorem W6_v1 : W6 m ρ c (Proc.devRef .tc main_v1) = srcVec (m ((c : Thread nD τ).loc main_arg1)) :=
  (((((W6_of_ne m ρ c main_v1 (by decide)).trans (keep2_v1 (W4 m ρ c))).trans (W4_of_ne m ρ c main_v1 (by decide))).trans (keep1_v1 (W2 m ρ c))).trans (W2_of_ne m ρ c main_v1 (by decide))).trans (stretch0_v1 (W0 m ρ c))
theorem W6_v3 : W6 m ρ c (Proc.devRef .tc main_v3) = dstVec (m ((c : Thread nD τ).loc main_arg1)) :=
  (((((W6_of_ne m ρ c main_v3 (by decide)).trans (keep2_v3 (W4 m ρ c))).trans (W4_of_ne m ρ c main_v3 (by decide))).trans (keep1_v3 (W2 m ρ c))).trans (W2_of_ne m ρ c main_v3 (by decide))).trans (stretch0_v3 (W0 m ρ c))
theorem W6_v12 : W6 m ρ c (Proc.devRef .tc main_v12) = invDegree (dstVec (m ((c : Thread nD τ).loc main_arg1))) :=
  (((((W6_of_ne m ρ c main_v12 (by decide)).trans (keep2_v12 (W4 m ρ c))).trans (W4_of_ne m ρ c main_v12 (by decide))).trans (keep1_v12 (W2 m ρ c))).trans (W2_of_ne m ρ c main_v12 (by decide))).trans (stretch0_v12 (W0 m ρ c))
theorem W1_v15 : W1 m ρ c (Proc.devRef .tc main_v15) = weights1 (m ((c : Thread nD τ).loc main_arg2)) (m ((c : Thread nD τ).loc main_arg4)) :=
  stretch0_v15 (W0 m ρ c)
theorem W5_v31 : W5 m ρ c (Proc.devRef .tc main_v31) = W4 m ρ c (Proc.devRef .tc main_v31) :=
  keep2_v31 (W4 m ρ c)
theorem W5_v34 : W5 m ρ c (Proc.devRef .tc main_v34) = weights2 (m ((c : Thread nD τ).loc main_arg5)) (m ((c : Thread nD τ).loc main_arg7)) :=
  (stretch2_v34 (W4 m ρ c)).trans (by rw [W4_arg5, W4_arg7])

end Cert.KernelIdeal.Walks

end
-- ==== Proof.LibMeanAggLayer.lean ====
/-
  A mean-aggregating graph-convolution layer, one entry at a time, in two arrangements, and the law that joins them.

  A layer takes node features `X n k`, for every edge `e` the node `s e` it reads from and the segment `g e` it adds into
  (an integer: an edge whose segment is no node number is dropped), two weight matrices `Wl`, `Wr` and a bias `b`.
  With `inEdges g n` the edges whose segment is node `n` and `denom g n = max (number of those edges) 1`:

  * PROJECT FIRST (`layerP`): each node's features are multiplied by `Wl` first, the projected rows are summed over the
    incoming edges, and the sum is multiplied by `1 / denom`; then the node's own features times `Wr`, then the bias.
  * AGGREGATE FIRST (`layerA`): the raw feature rows are summed over the incoming edges and divided by `denom`, the mean
    is multiplied by `Wl`; then the bias, then the node's own features times `Wr`.

  On the extended reals the two differ only by distributivity and by exchanging the sum over edges with the sum over
  features, which hold once every entry is a real number (they fail at infinities). When every feature, weight and bias
  entry is real, both arrangements are the coercion of ONE real number (`layerP_coe`, `layerA_coe`): the divisor is a
  real at least one, so dividing by it is multiplying by its reciprocal; finite sums and products of reals stay real;
  and over the reals the reciprocal and the weights move freely across the two finite sums, which may be exchanged
  (`layer_eq`). A rectified real is a real, so the law passes through two layers with a rectifier between (`net_eq`).
  Everything is over arbitrary numbers of nodes, edges and features.
-/
import Idealize.ShloMosaic.PureOps.Ideal
import Idealize.ShloMosaic.PureOps.Ideal.Laws

noncomputable section

open scoped BigOperators

namespace Cert.Sage

open Idealize.ShloMosaic

variable {N E Din Dout : Nat}

/-- The edges whose segment is node `n`. -/
def inEdges (g : Fin E → Int) (n : Fin N) : Finset (Fin E) := Finset.univ.filter fun e => g e = (n.val : Int)

/-- The number of edges into node `n`, as the sum of one unit per edge added into zero. -/
def degree (g : Fin E → Int) (n : Fin N) : EReal := 0 + ∑ _e ∈ inEdges g n, (1 : EReal)

/-- The mean's divisor: the degree, or one at a node with no incoming edge. -/
def denom (g : Fin E → Int) (n : Fin N) : EReal := max (degree g n) 1

/-- One layer, projecting before aggregating. -/
def layerP (s : Fin E → Fin N) (g : Fin E → Int) (X : Fin N → Fin Din → EReal) (Wl Wr : Fin Dout → Fin Din → EReal)
    (b : Fin Dout → EReal) (n : Fin N) (c : Fin Dout) : EReal :=
  ((0 + ∑ e ∈ inEdges g n, ∑ k : Fin Din, X (s e) k * Wl c k) * Ideal.div 1 (denom g n) + ∑ k : Fin Din, X n k * Wr c k) + b c

/-- One layer, aggregating before projecting. -/
def layerA (s : Fin E → Fin N) (g : Fin E → Int) (X : Fin N → Fin Din → EReal) (Wl Wr : Fin Dout → Fin Din → EReal)
    (b : Fin Dout → EReal) (n : Fin N) (c : Fin Dout) : EReal :=
  (∑ k : Fin Din, Ideal.div (0 + ∑ e ∈ inEdges g n, X (s e) k) (denom g n) * Wl c k + b c) + ∑ k : Fin Din, X n k * Wr c k

/-- The f32 pattern of one denotes one. -/
theorem ofBits_one_f32 : Ideal.ofBits .f32 0x3F800000#32 = 1 := by
  simp [Ideal.ofBits, Ideal.ieee]
  rw [← EReal.coe_mul, ← EReal.coe_one, EReal.coe_eq_coe_iff]
  norm_num

/-! ## The law -/

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of reals into the extended reals is monotone, so it commutes with `max`. -/
theorem coe_max (a b : ℝ) : ((max a b : ℝ) : EReal) = max (a : EReal) (b : EReal) :=
  EReal.coe_strictMono.monotone.map_max

/-- The mean's divisor as a real number: the number of incoming edges, or one. -/
def denomR (g : Fin E → Int) (n : Fin N) : ℝ := max ((inEdges g n).card : ℝ) 1

theorem denomR_pos (g : Fin E → Int) (n : Fin N) : 0 < denomR g n := lt_of_lt_of_le one_pos (le_max_right _ _)

theorem denom_coe (g : Fin E → Int) (n : Fin N) : denom g n = (denomR g n : EReal) := by
  unfold denom degree denomR
  have h1 : (∑ _e ∈ inEdges g n, (1 : EReal)) = (((inEdges g n).card : ℝ) : EReal) := by
    rw [← EReal.coe_one, ← coe_sum, Finset.sum_const, nsmul_eq_mul, mul_one]
  rw [zero_add, h1, coe_max, EReal.coe_one]

/-- The layer over the reals. -/
def layerReal (s : Fin E → Fin N) (g : Fin E → Int) (x : Fin N → Fin Din → ℝ) (wl wr : Fin Dout → Fin Din → ℝ)
    (b : Fin Dout → ℝ) (n : Fin N) (c : Fin Dout) : ℝ :=
  ((∑ e ∈ inEdges g n, ∑ k : Fin Din, x (s e) k * wl c k) * (1 / denomR g n) + ∑ k : Fin Din, x n k * wr c k) + b c

/-- Projecting first, on real entries, is the real layer. -/
theorem layerP_coe (s : Fin E → Fin N) (g : Fin E → Int) (x : Fin N → Fin Din → ℝ) (wl wr : Fin Dout → Fin Din → ℝ)
    (b : Fin Dout → ℝ) (n : Fin N) (c : Fin Dout) :
    layerP s g (fun a k => (x a k : EReal)) (fun c k => (wl c k : EReal)) (fun c k => (wr c k : EReal)) (fun c => (b c : EReal)) n c
      = (layerReal s g x wl wr b n c : EReal) := by
  unfold layerP layerReal
  rw [denom_coe, Ideal.div_coe (denomR_pos g n).ne', one_mul, zero_add]
  simp only [← EReal.coe_mul, ← coe_sum, ← EReal.coe_add]

/-- Aggregating first, on real entries, is the same real layer: the reciprocal of the divisor and the weights move
    across the two finite sums, which are exchanged. -/
theorem layerA_coe (s : Fin E → Fin N) (g : Fin E → Int) (x : Fin N → Fin Din → ℝ) (wl wr : Fin Dout → Fin Din → ℝ)
    (b : Fin Dout → ℝ) (n : Fin N) (c : Fin Dout) :
    layerA s g (fun a k => (x a k : EReal)) (fun c k => (wl c k : EReal)) (fun c k => (wr c k : EReal)) (fun c => (b c : EReal)) n c
      = (layerReal s g x wl wr b n c : EReal) := by
  unfold layerA layerReal
  rw [denom_coe]
  simp only [Ideal.div_coe (denomR_pos g n).ne', zero_add, ← EReal.coe_mul, ← coe_sum, ← EReal.coe_add]
  rw [EReal.coe_eq_coe_iff]
  have key : ∑ k : Fin Din, (∑ e ∈ inEdges g n, x (s e) k) * (1 / denomR g n) * wl c k
      = (∑ e ∈ inEdges g n, ∑ k : Fin Din, x (s e) k * wl c k) * (1 / denomR g n) := by
    simp only [Finset.sum_mul]
    rw [Finset.sum_comm]
    exact Finset.sum_congr rfl fun e _ => Finset.sum_congr rfl fun k _ => by ring
  rw [key]
  ring

/-- ONE LAYER: on real entries the two arrangements agree. -/
theorem layer_eq (s : Fin E → Fin N) (g : Fin E → Int) (x : Fin N → Fin Din → ℝ) (wl wr : Fin Dout → Fin Din → ℝ)
    (b : Fin Dout → ℝ) (n : Fin N) (c : Fin Dout) :
    layerP s g (fun a k => (x a k : EReal)) (fun c k => (wl c k : EReal)) (fun c k => (wr c k : EReal)) (fun c => (b c : EReal)) n c
      = layerA s g (fun a k => (x a k : EReal)) (fun c k => (wl c k : EReal)) (fun c k => (wr c k : EReal)) (fun c => (b c : EReal)) n c :=
  (layerP_coe s g x wl wr b n c).trans (layerA_coe s g x wl wr b n c).symm

/-- A family of extended reals that are all real is the coercion of a real family. -/
theorem exists_real2 {α β : Type*} (X : α → β → EReal) (h : ∀ a k, ∃ r : ℝ, X a k = (r : EReal)) :
    ∃ x : α → β → ℝ, X = fun a k => (x a k : EReal) := by
  choose x hx using h
  exact ⟨x, funext fun a => funext fun k => hx a k⟩

theorem exists_real1 {α : Type*} (X : α → EReal) (h : ∀ a, ∃ r : ℝ, X a = (r : EReal)) :
    ∃ x : α → ℝ, X = fun a => (x a : EReal) := by
  choose x hx using h
  exact ⟨x, funext fun a => hx a⟩

/-- TWO LAYERS with a rectifier between them: when every entry of the features, the four weight matrices and the
    two biases is a real number, projecting first and aggregating first give the same network output. -/
theorem net_eq {D1 D2 : Nat} (s : Fin E → Fin N) (g : Fin E → Int) (X : Fin N → Fin Din → EReal)
    (W1l W1r : Fin D1 → Fin Din → EReal) (b1 : Fin D1 → EReal) (W2l W2r : Fin D2 → Fin D1 → EReal) (b2 : Fin D2 → EReal)
    (hX : ∀ a k, ∃ r : ℝ, X a k = (r : EReal)) (hW1l : ∀ a k, ∃ r : ℝ, W1l a k = (r : EReal))
    (hW1r : ∀ a k, ∃ r : ℝ, W1r a k = (r : EReal)) (hb1 : ∀ a, ∃ r : ℝ, b1 a = (r : EReal))
    (hW2l : ∀ a k, ∃ r : ℝ, W2l a k = (r : EReal)) (hW2r : ∀ a k, ∃ r : ℝ, W2r a k = (r : EReal))
    (hb2 : ∀ a, ∃ r : ℝ, b2 a = (r : EReal)) (n : Fin N) (c : Fin D2) :
    layerP s g (fun a k => max (layerP s g X W1l W1r b1 a k) 0) W2l W2r b2 n c
      = layerA s g (fun a k => max (layerA s g X W1l W1r b1 a k) 0) W2l W2r b2 n c := by
  obtain ⟨x, rfl⟩ := exists_real2 X hX
  obtain ⟨w1l, rfl⟩ := exists_real2 W1l hW1l
  obtain ⟨w1r, rfl⟩ := exists_real2 W1r hW1r
  obtain ⟨β1, rfl⟩ := exists_real1 b1 hb1
  obtain ⟨w2l, rfl⟩ := exists_real2 W2l hW2l
  obtain ⟨w2r, rfl⟩ := exists_real2 W2r hW2r
  obtain ⟨β2, rfl⟩ := exists_real1 b2 hb2
  have hP : (fun a k => max (layerP s g (fun a k => (x a k : EReal)) (fun c k => (w1l c k : EReal))
      (fun c k => (w1r c k : EReal)) (fun c => (β1 c : EReal)) a k) 0)
      = fun a k => ((max (layerReal s g x w1l w1r β1 a k) 0 : ℝ) : EReal) := by
    funext a k
    rw [layerP_coe, coe_max, EReal.coe_zero]
  have hA : (fun a k => max (layerA s g (fun a k => (x a k : EReal)) (fun c k => (w1l c k : EReal))
      (fun c k => (w1r c k : EReal)) (fun c => (β1 c : EReal)) a k) 0)
      = fun a k => ((max (layerReal s g x w1l w1r β1 a k) 0 : ℝ) : EReal) := by
    funext a k
    rw [layerA_coe, coe_max, EReal.coe_zero]
  rw [hP, hA]
  exact layer_eq s g _ w2l w2r β2 n c

end Cert.Sage

end
-- ==== Proof.LibSegmentSum.lean ====
/-
  A float scatter-add whose scatter indices name ROWS, read at an index.

  `jax.ops.segment_sum(data, ids, num_segments = N)` lowers to a `stablehlo.scatter` with an `add` body over
  scatter indices of shape `[E, 1]`: update row `e` is added to operand row `ids[e]`, read signed, and is dropped
  when that row is outside `[0, N)`. Two layouts occur: updates `[E, D]` into an operand `[N, D]` (a row of `D`
  entries per update: the window axis is axis 1) and updates `[E]` into an operand `[N]` (one entry per update, no
  window axis). At the exact instance both are, entry by entry, the operand plus the sum of the updates over the SAME
  set of edges `{e | ids[e] = n}` (`rows_apply`, `entries_apply`), so a segment sum of differences `g e k - w e`
  with every `w e` real is the difference of the two segment sums (`sum_sub_coe`): on the extended reals the
  subtraction of a REAL distributes over a finite sum, which it does not for infinite `w`.
-/
import Idealize.ShloMosaic.PureOps.Ideal
import Idealize.ShloMosaic.Lib.ValueIdx

noncomputable section

open scoped BigOperators

namespace Cert.SegmentSum

open Idealize.ShloMosaic Idealize.ShloMosaic.ValueIdx

/-! ## The two layouts' dimension numbers -/

/-- Updates `[E, D]` into an operand `[N, D]`, one scatter index per update row. -/
abbrev rowsDims (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Updates `[E]` into an operand `[N]`, one scatter index per update entry. -/
abbrev entriesDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The segment edge `e` is sent to: its scatter index, read signed. -/
def seg {E w : Nat} (idx : IVec ⟨2, ![E, 1]⟩ w) (e : Fin E) : Int := (idx (ix2 e (0 : Fin 1))).toInt

section Rows
variable {N E D w : Nat} (wf : ScatterDims.WF ⟨2, ![N, D]⟩ ⟨2, ![E, 1]⟩ ⟨2, ![E, D]⟩ [1] [0] [0] 1)
variable (idx : IVec ⟨2, ![E, 1]⟩ w) (e : Fin E) (q : Fin D)

theorem rows_start0 : (rowsDims N E D wf).start (ix2 e q) idx 0 = seg idx e := by
  unfold ScatterDims.start
  rw [dif_pos (show (0 : Fin 2) ∈ (rowsDims N E D wf).scatterDimsToOperandDims from List.mem_singleton.mpr rfl)]
  have hsi : (rowsDims N E D wf).siIdx (ix2 e q) ⟨List.idxOf (0 : Fin 2) (rowsDims N E D wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem rows_start1 : (rowsDims N E D wf).start (ix2 e q) idx 1 = 0 := by
  unfold ScatterDims.start
  rw [dif_neg (show ¬ (1 : Fin 2) ∈ (rowsDims N E D wf).scatterDimsToOperandDims by
    show ¬ (1 : Fin 2) ∈ [(0 : Fin 2)]; decide)]

theorem rows_window0 : (rowsDims N E D wf).window (ix2 e q) 0 = 0 := by
  unfold ScatterDims.window
  rw [dif_neg (show ¬ (0 : Fin 2) ∈ (rowsDims N E D wf).sKept by
    show ¬ (0 : Fin 2) ∈ (List.finRange 2).filter (fun a => a ∉ [(0 : Fin 2)]); decide)]

theorem rows_window1 : (rowsDims N E D wf).window (ix2 e q) 1 = q.val := by
  unfold ScatterDims.window
  rw [dif_pos (show (1 : Fin 2) ∈ (rowsDims N E D wf).sKept by
    show (1 : Fin 2) ∈ (List.finRange 2).filter (fun a => a ∉ [(0 : Fin 2)]); decide)]
  rfl

/-- Update entry `(e, q)` lands on operand entry `(n, k)` exactly when edge `e`'s segment is `n` and `q = k`. -/
theorem rows_resultIdx_iff (n : Fin N) (k : Fin D) :
    (rowsDims N E D wf).resultIdx? (ix2 e q) idx = some (ix2 n k) ↔ seg idx e = (n.val : Int) ∧ q = k := by
  have s0 := rows_start0 wf idx e q
  have s1 := rows_start1 wf idx e q
  have w0 := rows_window0 wf e q
  have w1 := rows_window1 wf e q
  unfold ScatterDims.resultIdx?
  split_ifs with h
  · rw [Option.some.injEq]
    constructor
    · intro h'
      have h0 := congrArg Fin.val (congrFun h' 0)
      have h1 := congrArg Fin.val (congrFun h' 1)
      have p0 := (h 0).1
      simp only [s0, w0] at h0 p0
      simp only [s1, w1] at h1
      refine ⟨?_, Fin.ext ?_⟩
      · have : ((seg idx e + ((0 : Nat) : Int)).toNat : Nat) = n.val := h0
        omega
      · have : (((0 : Int) + (q.val : Int)).toNat : Nat) = k.val := h1
        omega
    · rintro ⟨hs, rfl⟩
      funext a; refine Fin.ext ?_
      match a with
      | ⟨0, _⟩ =>
        show ((rowsDims N E D wf).start (ix2 e q) idx 0 + ((rowsDims N E D wf).window (ix2 e q) 0 : Int)).toNat = n.val
        rw [s0, w0, hs]; omega
      | ⟨1, _⟩ =>
        show ((rowsDims N E D wf).start (ix2 e q) idx 1 + ((rowsDims N E D wf).window (ix2 e q) 1 : Int)).toNat = q.val
        rw [s1, w1]; omega
  · constructor
    · intro h'; exact absurd h' (by simp)
    · rintro ⟨hs, rfl⟩
      exfalso; apply h
      intro a
      match a with
      | ⟨0, _⟩ =>
        show 0 ≤ (rowsDims N E D wf).start (ix2 e q) idx 0 + ((rowsDims N E D wf).window (ix2 e q) 0 : Int) ∧
          (rowsDims N E D wf).start (ix2 e q) idx 0 + ((rowsDims N E D wf).window (ix2 e q) 0 : Int) < (N : Int)
        rw [s0, w0, hs]; have := n.isLt; omega
      | ⟨1, _⟩ =>
        show 0 ≤ (rowsDims N E D wf).start (ix2 e q) idx 1 + ((rowsDims N E D wf).window (ix2 e q) 1 : Int) ∧
          (rowsDims N E D wf).start (ix2 e q) idx 1 + ((rowsDims N E D wf).window (ix2 e q) 1 : Int) < (D : Int)
        rw [s1, w1]; have := q.isLt; omega

end Rows

section Entries
variable {N E w : Nat} (wf : ScatterDims.WF ⟨1, ![N]⟩ ⟨2, ![E, 1]⟩ ⟨1, ![E]⟩ [] [0] [0] 1)
variable (idx : IVec ⟨2, ![E, 1]⟩ w) (e : Fin E)

theorem entries_start0 : (entriesDims N E wf).start (ix1 e) idx 0 = seg idx e := by
  unfold ScatterDims.start
  rw [dif_pos (show (0 : Fin 1) ∈ (entriesDims N E wf).scatterDimsToOperandDims from List.mem_singleton.mpr rfl)]
  have hsi : (entriesDims N E wf).siIdx (ix1 e) ⟨List.idxOf (0 : Fin 1) (entriesDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem entries_window0 : (entriesDims N E wf).window (ix1 e) 0 = 0 := by
  unfold ScatterDims.window
  rw [dif_neg (show ¬ (0 : Fin 1) ∈ (entriesDims N E wf).sKept by
    show ¬ (0 : Fin 1) ∈ (List.finRange 1).filter (fun a => a ∉ [(0 : Fin 1)]); decide)]

/-- Update entry `e` lands on operand entry `n` exactly when edge `e`'s segment is `n`. -/
theorem entries_resultIdx_iff (n : Fin N) :
    (entriesDims N E wf).resultIdx? (ix1 e) idx = some (ix1 n) ↔ seg idx e = (n.val : Int) := by
  have s0 := entries_start0 wf idx e
  have w0 := entries_window0 wf e
  unfold ScatterDims.resultIdx?
  split_ifs with h
  · rw [Option.some.injEq]
    constructor
    · intro h'
      have h0 := congrArg Fin.val (congrFun h' 0)
      have p0 := (h 0).1
      simp only [s0, w0] at h0 p0
      have : ((seg idx e + ((0 : Nat) : Int)).toNat : Nat) = n.val := h0
      omega
    · intro hs
      funext a; refine Fin.ext ?_
      match a with
      | ⟨0, _⟩ =>
        show ((entriesDims N E wf).start (ix1 e) idx 0 + ((entriesDims N E wf).window (ix1 e) 0 : Int)).toNat = n.val
        rw [s0, w0, hs]; omega
  · constructor
    · intro h'; exact absurd h' (by simp)
    · intro hs
      exfalso; apply h
      intro a
      match a with
      | ⟨0, _⟩ =>
        show 0 ≤ (entriesDims N E wf).start (ix1 e) idx 0 + ((entriesDims N E wf).window (ix1 e) 0 : Int) ∧
          (entriesDims N E wf).start (ix1 e) idx 0 + ((entriesDims N E wf).window (ix1 e) 0 : Int) < (N : Int)
        rw [s0, w0, hs]; have := n.isLt; omega

end Entries

/-! ## The exact scatter-add at an entry -/

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- THE ROWS LAYOUT AT `(n, k)`: the operand's entry plus the sum, over the edges whose segment is `n`, of column
    `k` of their update rows. -/
theorem rows_apply {N E D w : Nat} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w) (upd : (⟨2, ![E, D]⟩ : Shape).Idx → EReal)
    (n : Fin N) (k : Fin D) :
    Ideal.hostScatterAdd (rowsDims N E D wf) x idx upd (ix2 n k)
      = x (ix2 n k) + ∑ e ∈ Finset.univ.filter (fun e : Fin E => seg idx e = (n.val : Int)), upd (ix2 e k) := by
  unfold Ideal.hostScatterAdd
  congr 1
  rw [Finset.sum_filter, Finset.sum_filter, sum_idx2]
  refine Finset.sum_congr rfl fun e _ => ?_
  by_cases hs : seg idx e = (n.val : Int)
  · rw [if_pos hs, Finset.sum_eq_single k]
    · rw [if_pos ((rows_resultIdx_iff wf idx e k n k).2 ⟨hs, rfl⟩)]
    · intro q _ hq
      rw [if_neg (fun h => hq ((rows_resultIdx_iff wf idx e q n k).1 h).2)]
    · intro h; exact absurd (Finset.mem_univ k) h
  · rw [if_neg hs]
    refine Finset.sum_eq_zero fun q _ => ?_
    rw [if_neg (fun h => hs ((rows_resultIdx_iff wf idx e q n k).1 h).1)]

/-- THE ENTRIES LAYOUT AT `n`: the operand's entry plus the sum of the updates of the edges whose segment is `n`. -/
theorem entries_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (n : Fin N) :
    Ideal.hostScatterAdd (entriesDims N E wf) x idx upd (ix1 n)
      = x (ix1 n) + ∑ e ∈ Finset.univ.filter (fun e : Fin E => seg idx e = (n.val : Int)), upd (ix1 e) := by
  unfold Ideal.hostScatterAdd
  congr 1
  rw [Finset.sum_filter, Finset.sum_filter, ← Equiv.sum_comp (idxEquiv1 (n := E)).symm]
  refine Finset.sum_congr rfl fun e _ => ?_
  show (if (entriesDims N E wf).resultIdx? (ix1 e) idx = some (ix1 n) then upd (ix1 e) else 0) = _
  by_cases hs : seg idx e = (n.val : Int)
  · rw [if_pos hs, if_pos ((entries_resultIdx_iff wf idx e n).2 hs)]
  · rw [if_neg hs, if_neg (fun h => hs ((entries_resultIdx_iff wf idx e n).1 h))]

/-! ## Subtracting reals under a finite sum -/

/-- On the extended reals, a finite sum of differences `g e - w e` with every `w e` REAL is the difference of the
    sums. (With infinite `w` it is false: `(0 - ⊥) + (0 - ⊤) = ⊥` while `(0 + 0) - (⊥ + ⊤) = ⊤`.) -/
theorem sum_sub_coe {ι : Type*} (s : Finset ι) (g : ι → EReal) (w : ι → ℝ) :
    ∑ e ∈ s, (g e - (w e : EReal)) = ∑ e ∈ s, g e - ∑ e ∈ s, (w e : EReal) := by
  classical
  have hw : ∀ s : Finset ι, ∑ e ∈ s, (w e : EReal) = ((∑ e ∈ s, w e : ℝ) : EReal) := by
    intro s
    induction s using Finset.induction_on with
    | empty => simp
    | insert a s ha ih => rw [Finset.sum_insert ha, Finset.sum_insert ha, ih, EReal.coe_add]
  rw [hw s]
  clear hw
  induction s using Finset.induction_on with
  | empty => simp
  | insert a s ha ih =>
    rw [Finset.sum_insert ha, Finset.sum_insert ha, Finset.sum_insert ha, ih, EReal.coe_add,
      sub_eq_add_neg, sub_eq_add_neg, sub_eq_add_neg, ← EReal.coe_add, ← EReal.coe_neg, ← EReal.coe_neg, ← EReal.coe_neg,
      neg_add, EReal.coe_add, add_add_add_comm]

/-! ## The segment sum of differences -/

/-- SUBTRACTING A REAL PER-EDGE WEIGHT COMMUTES WITH THE SEGMENT SUM. Scatter-adding, into zeros, update rows
    `u e k = u' e k − r e` (`r e` real) gives at `(n, k)` the scatter-add of the rows `u'` at `(n, k)` less the
    scatter-add of the weights `r` at `n`: all three sums run over the edges whose segment is `n`. -/
theorem segment_sum_sub {N E D w : Nat}
    (wf2 : ScatterDims.WF ⟨2, ![N, D]⟩ ⟨2, ![E, 1]⟩ ⟨2, ![E, D]⟩ [1] [0] [0] 1)
    (wf1 : ScatterDims.WF ⟨1, ![N]⟩ ⟨2, ![E, 1]⟩ ⟨1, ![E]⟩ [] [0] [0] 1)
    (z z' : (⟨2, ![N, D]⟩ : Shape).Idx → EReal) (z₁ : (⟨1, ![N]⟩ : Shape).Idx → EReal) (idx : IVec ⟨2, ![E, 1]⟩ w)
    (u u' : (⟨2, ![E, D]⟩ : Shape).Idx → EReal) (v : (⟨1, ![E]⟩ : Shape).Idx → EReal) (r : Fin E → ℝ)
    (n : Fin N) (k : Fin D)
    (hz : z (ix2 n k) = 0) (hz' : z' (ix2 n k) = 0) (hz₁ : z₁ (ix1 n) = 0)
    (hv : ∀ e, v (ix1 e) = (r e : EReal)) (hu : ∀ e, u (ix2 e k) = u' (ix2 e k) - (r e : EReal)) :
    Ideal.hostScatterAdd (rowsDims N E D wf2) z idx u (ix2 n k)
      = Ideal.hostScatterAdd (rowsDims N E D wf2) z' idx u' (ix2 n k)
        - Ideal.hostScatterAdd (entriesDims N E wf1) z₁ idx v (ix1 n) := by
  rw [rows_apply, rows_apply, entries_apply, hz, hz', hz₁, zero_add, zero_add, zero_add,
    Finset.sum_congr rfl (fun e _ => hu e), Finset.sum_congr rfl (fun e _ => hv e)]
  exact sum_sub_coe _ _ _

end Cert.SegmentSum

end
-- ==== Proof.LibGatherRows.lean ====
/-
  A gather of whole rows, read at an entry.

  `x[ids]` of a table `x : [N, D]` at a column of row numbers `ids : [E, 1]` lowers to a `stablehlo.gather` with offset
  axis 1, collapsed axis 0, start index map `[0]`, index vector axis 1 and slice sizes `[1, D]`. Entry `(e, q)` of the
  result is the table at row `ids[e]` — read signed and clamped into `[0, N − 1]`, as the gather clamps every start
  index — and column `q`. The row depends on the edge `e` alone, never on the column `q`.
-/
import Idealize.ShloMosaic.PureOps.Ideal
import Idealize.ShloMosaic.Lib.ValueIdx

noncomputable section

namespace Cert.GatherRows

open Idealize.ShloMosaic Idealize.ShloMosaic.ValueIdx

/-- Those dimension numbers for a table `[N, D]`, row numbers `[E, 1]` and a result `[E, D]`. -/
abbrev rowsDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The table row edge `e` reads: its row number, read signed and clamped into the table. -/
def rowOf {N E w : Nat} (hN : 0 < N) (idx : IVec ⟨2, ![E, 1]⟩ w) (e : Fin E) : Fin N :=
  ⟨min (idx (ix2 e (0 : Fin 1))).toInt.toNat (N - 1), by omega⟩

variable {α : Type}

/-- THE GATHER READ AT `(e, q)`: the table at the clamped row of edge `e` and column `q`. -/
theorem gather_rows_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (rowsDims N E D wf) x idx (ix2 e q) = x (ix2 (rowOf hN idx e) q) := by
  have hs0 : (rowsDims N E D wf).start (ix2 e q) idx 0 = (rowOf hN idx e).val := by
    unfold GatherDims.start
    rw [dif_pos (show (0 : Fin 2) ∈ (rowsDims N E D wf).startIndexMap from List.mem_singleton.mpr rfl)]
    have hsi : (rowsDims N E D wf).siIdx (ix2 e q) ⟨List.idxOf (0 : Fin 2) (rowsDims N E D wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  have ho0 : (rowsDims N E D wf).offCoord (ix2 e q) 0 = 0 :=
    GatherDims.offCoord_eq_zero _ _ _ (fun h => ((GatherDims.mem_sKept _ _).mp h).1 (List.mem_singleton.mpr rfl))
  have hs1 : (rowsDims N E D wf).start (ix2 e q) idx 1 = 0 := by
    unfold GatherDims.start
    rw [dif_neg (show ¬ (1 : Fin 2) ∈ (rowsDims N E D wf).startIndexMap by
      show ¬ (1 : Fin 2) ∈ [(0 : Fin 2)]; decide)]
  have ho1 : (rowsDims N E D wf).offCoord (ix2 e q) 1 = q.val := by
    unfold GatherDims.offCoord
    rw [dif_pos (show (1 : Fin 2) ∈ (rowsDims N E D wf).sKept by
      show (1 : Fin 2) ∈ (List.finRange 2).filter (fun a => a ∉ ([(0 : Fin 2)] ++ [])); decide)]
    rfl
  unfold Host.gather
  congr 1
  funext a
  refine Fin.ext ?_
  match a with
  | ⟨0, _⟩ =>
    show (rowsDims N E D wf).start (ix2 e q) idx 0 + (rowsDims N E D wf).batchCoord (ix2 e q) 0
      + (rowsDims N E D wf).offCoord (ix2 e q) 0 = (rowOf hN idx e).val
    rw [GatherDims.batchCoord_eq_zero _ _ _ List.not_mem_nil, hs0, ho0]
    rfl
  | ⟨1, _⟩ =>
    show (rowsDims N E D wf).start (ix2 e q) idx 1 + (rowsDims N E D wf).batchCoord (ix2 e q) 1
      + (rowsDims N E D wf).offCoord (ix2 e q) 1 = q.val
    rw [GatherDims.batchCoord_eq_zero _ _ _ List.not_mem_nil, hs1, ho1]
    omega

end Cert.GatherRows

end
-- ==== Proof.LibKeepdims.lean ====
/-
  Two layout readings a row reduction with `keepdims` needs: a vector of `a` entries viewed as a column `[a, 1]`, and that
  column repeated along `b` columns. Each reads, at an index given by its coordinates, one entry of the operand.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to the column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibRows.lean ====
/-
  General readings of matrix operations at an entry given by its row and column.

  * Two matrices with the same rows laid side by side (a concatenation along the columns): a column below the first
    piece's width reads the first piece at that column, a column from that width on reads the second piece at the
    column less the width.
  * A reduction of a matrix along its columns, read at a row, at the ideal values: with `max` it is the fold of `max`
    over the row's entries from the starting word's value; with `add` it is the plain sum of the row's entries.
  * A vector of one entry per row, viewed as a column and repeated along the columns, reads the row's entry.
-/
import proofs.«145483_j81544249081903_2_alg».proof.Proof.LibKeepdims
import Idealize.ShloMosaic.Lib.Pipeline.Value
import Idealize.ShloMosaic.Lib.ValueIdx
import Idealize.ShloMosaic.PureOps.Ideal.Laws

noncomputable section

open scoped BigOperators

namespace Cert.LibRows

open Idealize.ShloMosaic Idealize.ShloMosaic.ValueIdx

section Concatenate
variable {α : Type}

/-- Side by side, a column inside the first piece reads the first piece there. -/
theorem concat_cols_left {n a b c : Nat} (x₁ : (⟨2, ![n, a]⟩ : Shape).Idx → α) (x₂ : (⟨2, ![n, b]⟩ : Shape).Idx → α)
    (h : Shape.Concatenates [⟨2, ![n, a]⟩, ⟨2, ![n, b]⟩] ⟨2, ![n, c]⟩ 1) (r : Fin n) (j : Fin c) (hj : j.val < a) :
    concatenate ⟨2, ![n, c]⟩ 1 [⟨⟨2, ![n, a]⟩, x₁⟩, ⟨⟨2, ![n, b]⟩, x₂⟩] h (ix2 r j) = x₁ (ix2 r ⟨j.val, hj⟩) :=
  concatenate_pair_apply_left (1 : Fin 2) x₁ x₂ h (ix2 r j) rfl (ix2 r ⟨j.val, hj⟩) fun ax => by
    match ax with
    | ⟨0, _⟩ => rfl
    | ⟨1, _⟩ => rfl

/-- Side by side, a column past the first piece reads the second piece at the column less the first piece's width. -/
theorem concat_cols_right {n a b c : Nat} (x₁ : (⟨2, ![n, a]⟩ : Shape).Idx → α) (x₂ : (⟨2, ![n, b]⟩ : Shape).Idx → α)
    (h : Shape.Concatenates [⟨2, ![n, a]⟩, ⟨2, ![n, b]⟩] ⟨2, ![n, c]⟩ 1) (r : Fin n) (j : Fin c) (hj : a ≤ j.val)
    (hb : j.val - a < b) :
    concatenate ⟨2, ![n, c]⟩ 1 [⟨⟨2, ![n, a]⟩, x₁⟩, ⟨⟨2, ![n, b]⟩, x₂⟩] h (ix2 r j) = x₂ (ix2 r ⟨j.val - a, hb⟩) :=
  concatenate_pair_apply_right (1 : Fin 2) x₁ x₂ h (ix2 r j) rfl rfl (ix2 r ⟨j.val - a, hb⟩)
    (fun ax hne => by
      match ax with
      | ⟨0, _⟩ => rfl
      | ⟨1, _⟩ => exact absurd rfl hne)
    (by show j.val - a + a = j.val; omega)

end Concatenate

section Lanes
variable {φ : FTy}

/-- The source index over row `r` with column `k` is the entry `(r, k)`. -/
theorem lift_row {n m : Nat} (h : (⟨2, ![n, m]⟩ : Shape).Reduces [1] ⟨1, ![n]⟩) (r : Fin n) (k : Fin m) :
    h.lift (ix1 r) k = ix2 r k := by
  funext ax
  match ax with
  | ⟨0, _⟩ => exact Fin.ext rfl
  | ⟨1, _⟩ => exact Fin.ext rfl

/-- A `max` reduction along the columns, at a row: the fold of `max` over the row from the starting word's value. -/
theorem lane_max_apply {n m : Nat} (X : FVec Ideal ⟨2, ![n, m]⟩ φ) (acc : BitVec φ.bits)
    (h : (⟨2, ![n, m]⟩ : Shape).Reduces [1] ⟨1, ![n]⟩) (hφ : FKind.Formats φ) (hacc : acc = FKind.maximumf.neutral φ hφ)
    (r : Fin n) :
    multiReduction .maximumf [1] ⟨1, ![n]⟩ X acc h hφ hacc (ix1 r)
      = (Finset.univ : Finset (Fin m)).fold max (Ideal.ofBits φ acc) (fun j => X (ix2 r j)) := by
  refine (Ideal.multiReduction_maximumf_single X acc h hφ hacc (ix1 r)).trans ?_
  exact congrArg (fun f => (Finset.univ : Finset (Fin m)).fold max (Ideal.ofBits φ acc) f)
    (funext fun k => congrArg X (lift_row h r k))

/-- An `add` reduction along the columns, at a row: the plain sum of the row. -/
theorem lane_sum_apply {n m : Nat} (X : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (r : Fin n) :
    multiReduction .add [1] ⟨1, ![n]⟩ X acc h hφ hacc (ix1 r) = ∑ j : Fin m, X (ix2 r j) := by
  refine (Ideal.multiReduction_add_single X acc h hφ hacc (ix1 r)).trans ?_
  exact Finset.sum_congr rfl fun k _ => congrArg X (lift_row h r k)

end Lanes

section Keepdims
variable {α : Type}

/-- One entry per row, viewed as a column and repeated along the columns, reads the row's entry. -/
theorem column_broadcast_apply {n m : Nat} (y : (⟨1, ![n]⟩ : Shape).Idx → α)
    (hc : (⟨1, ![n]⟩ : Shape).ShapeCasts ⟨2, ![n, 1]⟩) (hb : (⟨2, ![n, 1]⟩ : Shape).Broadcasts ⟨2, ![n, m]⟩)
    (r : Fin n) (j : Fin m) :
    broadcastTo ⟨2, ![n, m]⟩ (shapeCast ⟨2, ![n, 1]⟩ y hc) hb (ix2 r j) = y (ix1 r) :=
  (Keepdims.broadcastTo_a1_ab_apply _ hb r j).trans (Keepdims.shapeCast_a_a1_apply y hc r 0)

end Keepdims

end Cert.LibRows

end
-- ==== Proof.Entries.lean ====
/-
  The host pieces of the idealized kernel, read at an entry.

  * A scalar constant spread over any shape reads its value at every index.
  * The reciprocal-divisor column at node `n` is one over `max (incoming-edge count of n) 1`: the count is the exact sum
    of one unit per edge whose destination is `n`, added into zero.
  * The mean aggregation at `(n, q)` is the exact sum, over the edges whose destination is `n`, of the projected row of
    the edge's source node at column `q`, added into zero, times node `n`'s reciprocal divisor.
  * The two transposed weight matrices side by side: column `q` of the left half at row `k` is the first matrix at
    `(q, k)`, column `q` of the right half is the second matrix at `(q, k)`.
  * The right half of the projection's columns at `(n, q)` is the projection at column `q` plus the half's width.
  Put together with a projection `P (n, j) = Σ_k X (n, k) · W (k, j)` over the side-by-side weights, one layer at an entry
  is the project-first arrangement of the mean-aggregating layer.
-/
import proofs.«145483_j81544249081903_2_alg».proof.Proof.Stretches
import proofs.«145483_j81544249081903_2_alg».proof.Proof.LibMeanAggLayer
import proofs.«145483_j81544249081903_2_alg».proof.Proof.LibSegmentSum
import proofs.«145483_j81544249081903_2_alg».proof.Proof.LibGatherRows
import proofs.«145483_j81544249081903_2_alg».proof.Proof.LibRows
import Idealize.ShloMosaic.Lib.ValueIdx
import Idealize.ShloMosaic.Lib.Pipeline.Value

set_option maxRecDepth 16384

noncomputable section

open scoped BigOperators

namespace Cert.KernelIdeal.Entries

open Cert.KernelIdeal Cert.KernelIdeal.Gen Cert.KernelIdeal.Stretches Idealize.ShloMosaic Idealize.ShloMosaic.ValueIdx

/-- The node whose row an edge gathers: its source number, wrapped if negative, clamped into the table. -/
def rowOfEdge (s : IVec S600000 32) : Fin 600000 → Fin 100000 :=
  Cert.GatherRows.rowOf (by norm_num : 0 < 100000) (wrapRows s)

/-- The segment an edge adds into: its destination number, read signed. -/
def segOfEdge (d : IVec S600000 32) : Fin 600000 → Int := Cert.SegmentSum.seg (asColumn d)

/-- A scalar constant spread over a shape reads its value at every index. -/
theorem splat_apply {s : Shape} (h : S_.BroadcastsInDim s ![]) (w : BitVec 32) (i : s.Idx) :
    broadcastInDim s ![] h (constant (F := Ideal) S_ .f32 w) i = Ideal.ofBits .f32 w :=
  (broadcastInDim_apply ![] h (constant (F := Ideal) S_ .f32 w) i (fun a => a.elim0) (fun a => a.elim0)).trans rfl

/-- Adding one entry per edge into a vector indexed by nodes: the operand's entry plus the sum over the incoming edges. -/
theorem addEntries_apply (x : FVec Ideal S100000 .f32) (idx : IVec S600000x1 32) (upd : FVec Ideal S600000 .f32) (n : Fin 100000) :
    Host.scatterAdd (F := Ideal) (φ := .f32) scatter_S100000_S600000x1_S600000_n_0_0_1 x idx upd (ix1 n)
      = x (ix1 n) + ∑ e ∈ Cert.Sage.inEdges (Cert.SegmentSum.seg idx) n, upd (ix1 e) :=
  Cert.SegmentSum.entries_apply scatter_S100000_S600000x1_S600000_n_0_0_1.wf x idx upd n

/-- Adding one row of 64 entries per edge into a table indexed by nodes. -/
theorem addRows64_apply (x : FVec Ideal S100000x64 .f32) (idx : IVec S600000x1 32) (upd : FVec Ideal S600000x64 .f32)
    (n : Fin 100000) (k : Fin 64) :
    Host.scatterAdd (F := Ideal) (φ := .f32) scatter_S100000x64_S600000x1_S600000x64_1_0_0_1 x idx upd (ix2 n k)
      = x (ix2 n k) + ∑ e ∈ Cert.Sage.inEdges (Cert.SegmentSum.seg idx) n, upd (ix2 e k) :=
  Cert.SegmentSum.rows_apply scatter_S100000x64_S600000x1_S600000x64_1_0_0_1.wf x idx upd n k

/-- Adding one row of 32 entries per edge into a table indexed by nodes. -/
theorem addRows32_apply (x : FVec Ideal S100000x32 .f32) (idx : IVec S600000x1 32) (upd : FVec Ideal S600000x32 .f32)
    (n : Fin 100000) (k : Fin 32) :
    Host.scatterAdd (F := Ideal) (φ := .f32) scatter_S100000x32_S600000x1_S600000x32_1_0_0_1 x idx upd (ix2 n k)
      = x (ix2 n k) + ∑ e ∈ Cert.Sage.inEdges (Cert.SegmentSum.seg idx) n, upd (ix2 e k) :=
  Cert.SegmentSum.rows_apply scatter_S100000x32_S600000x1_S600000x32_1_0_0_1.wf x idx upd n k

/-- Copying, for every edge, a row of 64 entries of a table indexed by nodes. -/
theorem copyRows64_apply (x : FVec Ideal S100000x64 .f32) (idx : IVec S600000x1 32) (e : Fin 600000) (k : Fin 64) :
    Host.gather gather_S100000x64_S600000x1_S600000x64_1_0_n_n_0_1_164 x idx (ix2 e k)
      = x (ix2 (Cert.GatherRows.rowOf (by norm_num : 0 < 100000) idx e) k) :=
  Cert.GatherRows.gather_rows_apply (by norm_num : 0 < 100000) gather_S100000x64_S600000x1_S600000x64_1_0_n_n_0_1_164.wf x idx e k

/-- Copying, for every edge, a row of 32 entries of a table indexed by nodes. -/
theorem copyRows32_apply (x : FVec Ideal S100000x32 .f32) (idx : IVec S600000x1 32) (e : Fin 600000) (k : Fin 32) :
    Host.gather gather_S100000x32_S600000x1_S600000x32_1_0_n_n_0_1_132 x idx (ix2 e k)
      = x (ix2 (Cert.GatherRows.rowOf (by norm_num : 0 < 100000) idx e) k) :=
  Cert.GatherRows.gather_rows_apply (by norm_num : 0 < 100000) gather_S100000x32_S600000x1_S600000x32_1_0_n_n_0_1_132.wf x idx e k

/-- The host's quotient of two arrays at an index is the quotient of the entries. -/
theorem hostDivf_apply {s : Shape} (a b : FVec Ideal s .f32) (i : s.Idx) : Host.divf a b i = Ideal.div (a i) (b i) := rfl

/-- The reciprocal-divisor column at a node. -/
theorem invDegree_entry (d : IVec S600000 32) (n : Fin 100000) :
    invDegree d (ix2 n (0 : Fin 1)) = Ideal.div 1 (Cert.Sage.denom (segOfEdge d) n) := by
  unfold invDegree
  rw [broadcastInDim_apply ![0] bcast_S100000_S100000x1_0 _ (ix2 n (0 : Fin 1)) (ix1 n) (fun a => by
    match a with
    | ⟨0, _⟩ => exact (if_neg (show ¬ (100000 : Nat) = 1 by decide)).symm)]
  rw [hostDivf_apply, maximumf_apply, addEntries_apply, splat_apply, splat_apply, Cert.Sage.ofBits_one_f32, Ideal.ofBits_zero_f32]
  unfold Cert.Sage.denom Cert.Sage.degree
  refine congrArg (fun z => Ideal.div 1 (max (0 + z) 1)) (Finset.sum_congr rfl fun e _ => ?_)
  rw [splat_apply, Cert.Sage.ofBits_one_f32]

/-- The mean aggregation of layer 1 at an entry. -/
theorem meanAgg1_entry (p : FVec Ideal S100000x128 .f32) (s d : IVec S600000 32) (r : FVec Ideal S100000x1 .f32)
    (n : Fin 100000) (q : Fin 64) :
    meanAgg1 p s d r (ix2 n q)
      = (0 + ∑ e ∈ Cert.Sage.inEdges (segOfEdge d) n, p (ix2 (rowOfEdge s e) (Fin.castLE (by norm_num) q))) * r (ix2 n (0 : Fin 1)) := by
  unfold meanAgg1
  rw [mulf_apply]
  refine congrArg₂ (· * ·) ?_ ?_
  · rw [addRows64_apply, splat_apply, Ideal.ofBits_zero_f32]
    refine congrArg (fun z => (0 : EReal) + z) (Finset.sum_congr rfl fun e _ => ?_)
    rw [copyRows64_apply]
    exact extractStridedSlice_apply ![0, 0] p slices_S100000x128_S100000x64_0_0 (ix2 (rowOfEdge s e) q)
      (ix2 (rowOfEdge s e) (Fin.castLE (by norm_num) q)) (fun a => by
        match a with
        | ⟨0, _⟩ => exact (Nat.zero_add _).symm
        | ⟨1, _⟩ => exact (Nat.zero_add _).symm)
  · exact broadcastInDim_apply ![0, 1] bcast_S100000x1_S100000x64_0_1 r (ix2 n q) (ix2 n (0 : Fin 1)) (fun a => by
      match a with
      | ⟨0, _⟩ => exact (if_neg (show ¬ (100000 : Nat) = 1 by decide)).symm
      | ⟨1, _⟩ => exact (if_pos rfl).symm)

/-- The mean aggregation of layer 2 at an entry. -/
theorem meanAgg2_entry (p : FVec Ideal S100000x64 .f32) (s d : IVec S600000 32) (r : FVec Ideal S100000x1 .f32)
    (n : Fin 100000) (q : Fin 32) :
    meanAgg2 p s d r (ix2 n q)
      = (0 + ∑ e ∈ Cert.Sage.inEdges (segOfEdge d) n, p (ix2 (rowOfEdge s e) (Fin.castLE (by norm_num) q))) * r (ix2 n (0 : Fin 1)) := by
  unfold meanAgg2
  rw [mulf_apply]
  refine congrArg₂ (· * ·) ?_ ?_
  · rw [addRows32_apply, splat_apply, Ideal.ofBits_zero_f32]
    refine congrArg (fun z => (0 : EReal) + z) (Finset.sum_congr rfl fun e _ => ?_)
    rw [copyRows32_apply]
    exact extractStridedSlice_apply ![0, 0] p slices_S100000x64_S100000x32_0_0 (ix2 (rowOfEdge s e) q)
      (ix2 (rowOfEdge s e) (Fin.castLE (by norm_num) q)) (fun a => by
        match a with
        | ⟨0, _⟩ => exact (Nat.zero_add _).symm
        | ⟨1, _⟩ => exact (Nat.zero_add _).symm)
  · exact broadcastInDim_apply ![0, 1] bcast_S100000x1_S100000x32_0_1 r (ix2 n q) (ix2 n (0 : Fin 1)) (fun a => by
      match a with
      | ⟨0, _⟩ => exact (if_neg (show ¬ (100000 : Nat) = 1 by decide)).symm
      | ⟨1, _⟩ => exact (if_pos rfl).symm)

/-- The right half of layer 1's projection at an entry. -/
theorem rightHalf1_entry (p : FVec Ideal S100000x128 .f32) (n : Fin 100000) (q : Fin 64) :
    extractStridedSlice S100000x64 ![0, 64] p slices_S100000x128_S100000x64_0_64 (ix2 n q)
      = p (ix2 n (⟨q.val + 64, by omega⟩ : Fin 128)) :=
  extractStridedSlice_apply ![0, 64] p slices_S100000x128_S100000x64_0_64 (ix2 n q) (ix2 n (⟨q.val + 64, by omega⟩ : Fin 128)) (fun a => by
    match a with
    | ⟨0, _⟩ => exact (Nat.zero_add _).symm
    | ⟨1, _⟩ => exact Nat.add_comm _ _)

/-- The right half of layer 2's projection at an entry. -/
theorem rightHalf2_entry (p : FVec Ideal S100000x64 .f32) (n : Fin 100000) (q : Fin 32) :
    extractStridedSlice S100000x32 ![0, 32] p slices_S100000x64_S100000x32_0_32 (ix2 n q)
      = p (ix2 n (⟨q.val + 32, by omega⟩ : Fin 64)) :=
  extractStridedSlice_apply ![0, 32] p slices_S100000x64_S100000x32_0_32 (ix2 n q) (ix2 n (⟨q.val + 32, by omega⟩ : Fin 64)) (fun a => by
    match a with
    | ⟨0, _⟩ => exact (Nat.zero_add _).symm
    | ⟨1, _⟩ => exact Nat.add_comm _ _)

/-- A transposed matrix at `(k, q)` is the matrix at `(q, k)`. -/
theorem transposed_entry {a b : Nat} (w : (⟨2, ![a, b]⟩ : Shape).Idx → EReal) (h : (⟨2, ![a, b]⟩ : Shape).Transposes [1, 0] ⟨2, ![b, a]⟩)
    (k : Fin b) (q : Fin a) : transpose ⟨2, ![b, a]⟩ [1, 0] w h (ix2 k q) = w (ix2 q k) :=
  transpose_apply [1, 0] w h (ix2 k q) (ix2 q k) (fun c => by
    match c with
    | ⟨0, _⟩ => rfl
    | ⟨1, _⟩ => rfl)

/-- Layer 1's side-by-side weights, left half. -/
theorem weights1_left (wl wr : FVec Ideal S64x128 .f32) (k : Fin 128) (q : Fin 64) :
    weights1 wl wr (ix2 k (Fin.castLE (by norm_num) q : Fin 128)) = wl (ix2 q k) := by
  unfold weights1
  rw [Cert.LibRows.concat_cols_left _ _ concatenates_S128x64_S128x64_S128x128_d1 k (Fin.castLE (by norm_num) q : Fin 128) q.isLt]
  exact transposed_entry wl transposes_S64x128_S128x64_1_0 k q

/-- Layer 1's side-by-side weights, right half. -/
theorem weights1_right (wl wr : FVec Ideal S64x128 .f32) (k : Fin 128) (q : Fin 64) :
    weights1 wl wr (ix2 k (⟨q.val + 64, by omega⟩ : Fin 128)) = wr (ix2 q k) := by
  unfold weights1
  rw [Cert.LibRows.concat_cols_right _ _ concatenates_S128x64_S128x64_S128x128_d1 k (⟨q.val + 64, by omega⟩ : Fin 128)
    (Nat.le_add_left _ _) (by show q.val + 64 - 64 < 64; omega)]
  exact (transposed_entry wr transposes_S64x128_S128x64_1_0 k ⟨q.val + 64 - 64, by omega⟩).trans
    (congrArg (fun z => wr (ix2 z k)) (Fin.ext (by show q.val + 64 - 64 = q.val; omega)))

/-- Layer 2's side-by-side weights, left half. -/
theorem weights2_left (wl wr : FVec Ideal S32x64 .f32) (k : Fin 64) (q : Fin 32) :
    weights2 wl wr (ix2 k (Fin.castLE (by norm_num) q : Fin 64)) = wl (ix2 q k) := by
  unfold weights2
  rw [Cert.LibRows.concat_cols_left _ _ concatenates_S64x32_S64x32_S64x64_d1 k (Fin.castLE (by norm_num) q : Fin 64) q.isLt]
  exact transposed_entry wl transposes_S32x64_S64x32_1_0 k q

/-- Layer 2's side-by-side weights, right half. -/
theorem weights2_right (wl wr : FVec Ideal S32x64 .f32) (k : Fin 64) (q : Fin 32) :
    weights2 wl wr (ix2 k (⟨q.val + 32, by omega⟩ : Fin 64)) = wr (ix2 q k) := by
  unfold weights2
  rw [Cert.LibRows.concat_cols_right _ _ concatenates_S64x32_S64x32_S64x64_d1 k (⟨q.val + 32, by omega⟩ : Fin 64)
    (Nat.le_add_left _ _) (by show q.val + 32 - 32 < 32; omega)]
  exact (transposed_entry wr transposes_S32x64_S64x32_1_0 k ⟨q.val + 32 - 32, by omega⟩).trans
    (congrArg (fun z => wr (ix2 z k)) (Fin.ext (by show q.val + 32 - 32 = q.val; omega)))

/-! ## One layer at an entry -/

/-- LAYER 1 at an entry. With `P` the projection of the features through the side-by-side weights, the mean
    aggregation of `P`'s left half, plus `P`'s right half, plus the bias, is the project-first layer. -/
theorem layer1_entry (X : FVec Ideal S100000x128 .f32) (wl wr : FVec Ideal S64x128 .f32) (b : FVec Ideal S64 .f32)
    (s d : IVec S600000 32) (Pj : FVec Ideal S100000x128 .f32)
    (hP : ∀ (a : Fin 100000) (j : Fin 128), Pj (ix2 a j) = ∑ k : Fin 128, X (ix2 a k) * weights1 wl wr (ix2 k j))
    (n : Fin 100000) (q : Fin 64) :
    (meanAgg1 Pj s d (invDegree d) (ix2 n q)
        + extractStridedSlice S100000x64 ![0, 64] Pj slices_S100000x128_S100000x64_0_64 (ix2 n q)) + b (ix1 q)
      = Cert.Sage.layerP (rowOfEdge s) (segOfEdge d) (fun a k => X (ix2 a k)) (fun c k => wl (ix2 c k))
          (fun c k => wr (ix2 c k)) (fun c => b (ix1 c)) n q := by
  rw [meanAgg1_entry, invDegree_entry, rightHalf1_entry]
  simp only [hP, weights1_left, weights1_right]
  rfl

/-- LAYER 2 at an entry, likewise. -/
theorem layer2_entry (X : FVec Ideal S100000x64 .f32) (wl wr : FVec Ideal S32x64 .f32) (b : FVec Ideal S32 .f32)
    (s d : IVec S600000 32) (Pj : FVec Ideal S100000x64 .f32)
    (hP : ∀ (a : Fin 100000) (j : Fin 64), Pj (ix2 a j) = ∑ k : Fin 64, X (ix2 a k) * weights2 wl wr (ix2 k j))
    (n : Fin 100000) (q : Fin 32) :
    (meanAgg2 Pj s d (invDegree d) (ix2 n q)
        + extractStridedSlice S100000x32 ![0, 32] Pj slices_S100000x64_S100000x32_0_32 (ix2 n q)) + b (ix1 q)
      = Cert.Sage.layerP (rowOfEdge s) (segOfEdge d) (fun a k => X (ix2 a k)) (fun c k => wl (ix2 c k))
          (fun c k => wr (ix2 c k)) (fun c => b (ix1 c)) n q := by
  rw [meanAgg2_entry, invDegree_entry, rightHalf2_entry]
  simp only [hP, weights2_left, weights2_right]
  rfl

end Cert.KernelIdeal.Entries

end
-- ==== Proof.LibMatmulPlain.lean ====
/-
  Two general facts about matrix products at the ideal values.

  * A kernel's matrix product with the plain dimension numbers (rows by columns, one contracted axis, no batch axis)
    accumulated into the zero splat, read at entry (a, b), is the inner product of row `a` of the left factor with
    column `b` of the right one: `∑ c, A a c · B c b`.
  * On the extended reals a factor distributes over a sum of two NONNEGATIVE terms whatever the factor is (the two
    infinities of opposite sign cannot meet), so a weighted sum of such sums splits into the two weighted sums.
-/
import Idealize.ShloMosaic.Lib.StackMember
import Idealize.ShloMosaic.Lib.KernelVsHost
import Idealize.ShloMosaic.Lib.ValueIdx
import Idealize.ShloMosaic.PureOps.Ideal.Laws

noncomputable section

open scoped BigOperators

namespace Cert.LibMatmulPlain

open Idealize.ShloMosaic Idealize.ShloMosaic.ValueIdx

/-- A product with the plain dimension numbers accumulated into the zero splat, read at an entry: the inner product
    of a row of the left factor with a column of the right one. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-- A factor distributes over a sum of two nonnegative extended reals, so a weighted sum of such sums splits. -/
theorem sum_mul_add_of_nonneg {ι : Type} [Fintype ι] (w A B : ι → EReal) (hA : ∀ k, 0 ≤ A k) (hB : ∀ k, 0 ≤ B k) :
    ∑ k, w k * (A k + B k) = ∑ k, w k * A k + ∑ k, w k * B k := by
  rw [← Finset.sum_add_distrib]
  exact Finset.sum_congr rfl fun k _ => EReal.left_distrib_of_nonneg (hA k) (hB k)

end Cert.LibMatmulPlain

end
-- ==== Proof.RegionArrays.lean ====
/-
  The four pipelined regions of the layer, each read as one array.

  Every region walks ten row blocks of 10000 rows. At each block its body loads whole buffers, computes one value and
  stores it over the whole output buffer, so the block written back is the body's arithmetic applied to the blocks that
  were read. Two of the regions multiply the row block by a weight matrix that stays in place; the other two add two
  row blocks and a bias vector repeated along the rows (the first of them then takes the maximum with zero). In each
  case entry (p, q) of the result block depends on row p of the row blocks only, and row p of block t is row
  10000 t + p of the array, so the ten blocks are the ten row bands of ONE array-wide function. The bands cover the
  array (row r lies in band r / 10000), hence the array the region leaves IS that function; the last theorem of each
  section reads it at an entry given by its row and its column.

  The contents of the buffers when a region is entered stay a parameter `V` throughout.
-/
import proofs.«145483_j81544249081903_2_alg».proof.Proof.Gen.KernelIdeal.Frame
import proofs.«145483_j81544249081903_2_alg».proof.Proof.LibMatmulPlain
import proofs.«145483_j81544249081903_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.RegionArrays

open Cert.KernelIdeal Cert.KernelIdeal.Gen Idealize.ShloMosaic Idealize.ShloMosaic.ValueIdx Idealize.ShloMosaic.TcCoe Idealize.SL.Sem
open Idealize.ShloMosaic.Pipeline (Dat)
open scoped BigOperators

variable (V : (c : Dev nD) → (b : Ref sig .tc) → Buf (Elt Ideal) ((c : Thread nD τ).loc b))

/-- The product and the sum of two extended reals with the type written out: an entry of a buffer has a type that
    only unfolds to the extended reals, so the statements below name it. -/
scoped notation:70 x:70 " ⬝ " y:71 => @HMul.hMul EReal EReal EReal instHMul x y
scoped notation:65 x:65 " ⊞ " y:66 => @HAdd.hAdd EReal EReal EReal instHAdd x y

/-- The offsets of a load or store of a whole rank-2 buffer are all zero, -/
theorem offs2_zero : (![0, 0] : Fin 2 → Nat) = fun _ => 0 := funext fun a => by fin_cases a <;> rfl
/-- and so are those of a whole rank-1 buffer. -/
theorem offs1_zero : (![0] : Fin 1 → Nat) = fun _ => 0 := funext fun a => by fin_cases a; rfl

/-- A function of a row and a column as an array over the rank-2 index set. -/
def ofCoords {a b : ℕ} (f : Fin a → Fin b → EReal) : (⟨2, ![a, b]⟩ : Shape).Idx → EReal := fun i => f (idxEquiv2 i).1 (idxEquiv2 i).2

/-- At the index with row `p` and column `q` it is the function at `p` and `q`. -/
theorem ofCoords_apply {a b : ℕ} (f : Fin a → Fin b → EReal) (p : Fin a) (q : Fin b) : ofCoords f (ix2 p q) = f p q := rfl

/-! ## The arrays behind the windows

Each region's windows, in order, stand on these arrays (the last one of each region is its output). -/

example : Pipeline.arrRef spec0 0 = main_arg0 ∧ Pipeline.arrRef spec0 1 = main_v15 ∧ Pipeline.arrRef spec0 2 = main_v16 :=
  ⟨rfl, rfl, rfl⟩
example : Pipeline.arrRef spec1 0 = main_v30 ∧ Pipeline.arrRef spec1 1 = main_v18 ∧ Pipeline.arrRef spec1 2 = main_arg3
    ∧ Pipeline.arrRef spec1 3 = main_v31 := ⟨rfl, rfl, rfl, rfl⟩
example : Pipeline.arrRef spec2 0 = main_v31 ∧ Pipeline.arrRef spec2 1 = main_v34 ∧ Pipeline.arrRef spec2 2 = main_v35 :=
  ⟨rfl, rfl, rfl⟩
example : Pipeline.arrRef spec3 0 = main_v49 ∧ Pipeline.arrRef spec3 1 = main_v37 ∧ Pipeline.arrRef spec3 2 = main_arg6
    ∧ Pipeline.arrRef spec3 3 = main_v50 := ⟨rfl, rfl, rfl, rfl⟩

/-! ## The first projection: rows of the input times the weight matrix -/

/-- One entry of the body's result: the product into the zero accumulator, the changes of float format being the
    identity on extended reals and each cast a cast to the operand's own shape, is the inner product of a row of the
    row block with a column of the weight matrix. -/
theorem project1_payload (x : Vec Ideal S10000x128 .f32) (w : Vec Ideal S128x128 .f32) (p : Fin 10000) (q : Fin 128) :
    k0_pay1 (F := Ideal) x w (ix2 p q) = ∑ k : Fin 128, x (ix2 p k) * w (ix2 k q) := by
  unfold k0_pay1
  rw [shapeCast_self]
  exact Cert.LibMatmulPlain.matmul_plain_zero_apply none _ _ p q

/-- What the body leaves in the output buffer: its one store covers the buffer and both loads read whole buffers, so
    the buffer holds the payload, entry by entry. -/
theorem project1_block (x : Vec Ideal S10000x128 .f32) (w : Vec Ideal S128x128 .f32) :
    out0_2 (F := Ideal) x w = ofCoords fun p q => ∑ k : Fin 128, x (ix2 p k) * w (ix2 k q) := by
  unfold out0_2
  rw [View.canon_unit_zero offs2_zero]
  simp only [View.ld_unit_zero (S := S10000x128) offs2_zero, View.ld_unit_zero (S := S128x128) offs2_zero]
  funext j
  obtain ⟨p, q, rfl⟩ : ∃ (p : Fin 10000) (q : Fin 128), j = ix2 p q := ⟨j 0, j 1, eq_ix2 j⟩
  exact project1_payload x w p q

/-- The block indices over the ten grid points: the input and the output move down the rows with the point, the weight
    matrix stays where it is. -/
theorem project1_points : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of the input's block at point `t` is row `10000 t + p` of the input array. -/
theorem project1_rows (c : Dev nD) (t : Fin cfg0.N) (p : Fin 10000) (k : Fin 128) (n : Fin 100000)
    (hn : n.val = t.val * 10000 + p.val) :
    iblk0 V c 0 t (ix2 p k) = V c main_arg0 (ix2 n k) := by
  obtain ⟨e0, e1, -⟩ := project1_points t
  unfold iblk0
  rw [View.read_apply]
  show V c main_arg0 _ = V c main_arg0 _
  congr 1
  funext a; apply Fin.ext
  match a with
  | ⟨0, _⟩ => show win0_0.index t (0 : Fin 2) * 10000 + 1 * p.val = n.val; omega
  | ⟨1, _⟩ => show win0_0.index t (1 : Fin 2) * 128 + 1 * k.val = k.val; omega

/-- The weight matrix's block at every point is the whole matrix. -/
theorem project1_weight (c : Dev nD) (t : Fin cfg0.N) (k : Fin 128) (q : Fin 128) :
    iblk0 V c 1 t (ix2 k q) = V c main_v15 (ix2 k q) := by
  obtain ⟨-, -, e2, e3, -⟩ := project1_points t
  unfold iblk0
  rw [View.read_apply]
  show V c main_v15 _ = V c main_v15 _
  congr 1
  funext a; apply Fin.ext
  match a with
  | ⟨0, _⟩ => show win0_1.index t (0 : Fin 2) * 128 + 1 * k.val = k.val; omega
  | ⟨1, _⟩ => show win0_1.index t (1 : Fin 2) * 128 + 1 * q.val = q.val; omega

/-- The whole product: entry `(n, q)` is the inner product of row `n` of the input with column `q` of the weight matrix. -/
def projectArr1 (c : Dev nD) : S100000x128.Idx → EReal :=
  ofCoords fun n q => ∑ k : Fin 128, V c main_arg0 (ix2 n k) ⬝ V c main_v15 (ix2 k q)

/-- What point `t` writes back is block `t` of the whole product: a row of the block is a row of the array, and the
    product of a row only reads that row. -/
theorem project1_flushed (c : Dev nD) (t : Fin cfg0.N) :
    (dat0 (F := Ideal) V c).flushed 2 t = ((cfg0.win 2).blk t).view.read (Elt Ideal) (projectArr1 V c) := by
  obtain ⟨-, -, -, -, e4, e5⟩ := project1_points t
  show (cfg0.win 2).cut (grid0.coords t) ((dat0 V c).after 2 t) = _
  rw [after0_2, project1_block]
  funext j
  obtain ⟨p, q, rfl⟩ : ∃ (p : Fin 10000) (q : Fin 128), j = ix2 p q := ⟨j 0, j 1, eq_ix2 j⟩
  have hN : grid0.N = 10 := N_0
  have ht : t.val < grid0.N := t.isLt
  have hlt : t.val * 10000 + p.val < 100000 := by omega
  have hemb : ((cfg0.win 2).blk t).view.emb (ix2 p q) = ix2 (⟨t.val * 10000 + p.val, hlt⟩ : Fin 100000) q := by
    funext a; apply Fin.ext
    match a with
    | ⟨0, _⟩ => show win0_2.index t (0 : Fin 2) * 10000 + 1 * p.val = t.val * 10000 + p.val; omega
    | ⟨1, _⟩ => show win0_2.index t (1 : Fin 2) * 128 + 1 * q.val = q.val; omega
  rw [View.read_apply, hemb]
  show (∑ k : Fin 128, iblk0 V c 0 t (ix2 p k) ⬝ iblk0 V c 1 t (ix2 k q))
    = ∑ k : Fin 128, V c main_arg0 (ix2 ⟨t.val * 10000 + p.val, hlt⟩ k) ⬝ V c main_v15 (ix2 k q)
  refine Finset.sum_congr rfl fun k _ => ?_
  rw [project1_rows V c t p k ⟨_, hlt⟩ rfl, project1_weight V c t k q]

/-- An index lies in point `t`'s output block when each coordinate lies in the block's range on its axis. -/
theorem project1_mem (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v16).slice (win0_2.rect t)).set ↔ _
  rw [View.set_slice_whole, Rect.mem_set_unit]
  exact Iff.rfl

/-- The ten row blocks cover the array: row `r` lies in the block of point `r / 10000`. -/
theorem project1_cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 10 := N_0
  have hlt : (i 0).val / 10000 < grid0.N := by omega
  obtain ⟨-, -, -, -, e4, e5⟩ := project1_points ⟨(i 0).val / 10000, hlt⟩
  refine ⟨⟨(i 0).val / 10000, hlt⟩, flush0_2 _, ?_⟩
  rw [project1_mem]
  intro a
  match a with
  | ⟨0, _⟩ =>
    show win0_2.index ⟨(i 0).val / 10000, hlt⟩ (0 : Fin 2) * 10000 ≤ (i 0).val
      ∧ (i 0).val < win0_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, hlt⟩ (1 : Fin 2) * 128 ≤ (i 1).val
      ∧ (i 1).val < win0_2.index ⟨(i 0).val / 10000, hlt⟩ (1 : Fin 2) * 128 + 128
    omega

/-- The output array after the region is the whole product. -/
theorem project1_array (c : Dev nD) : (dat0 (F := Ideal) V c).arrAt 2 cfg0.N = projectArr1 V c :=
  (dat0 (F := Ideal) V c).arrAt_eq_of_cover 2 (projectArr1 V c) (fun t _ => project1_flushed V c t) project1_cover

/-- Entry `(n, q)` of the array this projection leaves: row `n` of the input against column `q` of the weights. -/
theorem project1_entry (c : Dev nD) (n : Fin 100000) (q : Fin 128) :
    (dat0 (F := Ideal) V c).arrAt 2 cfg0.N (ix2 n q)
      = ∑ k : Fin 128, V c main_arg0 (ix2 n k) ⬝ V c main_v15 (ix2 k q) :=
  congrFun (project1_array V c) (ix2 n q)

/-! ## The first combination: the neighbours' mean plus the node's own projection plus the bias, cut below at zero -/

/-- One entry of the body's result: the two casts of the row blocks are casts to their own shape, and the bias vector,
    viewed as one row and repeated down the rows, reads at `(p, q)` its entry `q`; so the entry is the sum of the two row blocks and the bias row, cut below at zero. -/
theorem combine1_payload (x y : Vec Ideal S10000x64 .f32) (b : Vec Ideal S64 .f32) (p : Fin 10000) (q : Fin 64) :
    k1_pay1 (F := Ideal) x y b (ix2 p q) = max ((x (ix2 p q) + y (ix2 p q)) + b (ix1 q)) 0 := by
  unfold k1_pay1
  rw [shapeCast_self, shapeCast_self, maximumf_apply, addf_apply, addf_apply, broadcast_apply, broadcastTo_1b_ab_apply,
    shapeCast_a_1a_apply]
  show max _ (Ideal.ofBits .f32 0x00000000#32) = _
  rw [Ideal.ofBits_zero_f32]

/-- What the body leaves in the output buffer: its one store covers the buffer and the three loads read whole buffers,
    so the buffer holds the payload, entry by entry. -/
theorem combine1_block (x y : Vec Ideal S10000x64 .f32) (b : Vec Ideal S64 .f32) :
    out1_3 (F := Ideal) x y b = ofCoords fun p q => max ((x (ix2 p q) + y (ix2 p q)) + b (ix1 q)) 0 := by
  unfold out1_3
  rw [View.canon_unit_zero offs2_zero]
  simp only [View.ld_unit_zero (S := S10000x64) offs2_zero, View.ld_unit_zero (S := S64) offs1_zero]
  funext j
  obtain ⟨p, q, rfl⟩ : ∃ (p : Fin 10000) (q : Fin 64), j = ix2 p q := ⟨j 0, j 1, eq_ix2 j⟩
  exact combine1_payload x y b p q

/-- The block indices over the ten grid points: the two summands and the output move down the rows with the point, the
    bias vector stays where it is. -/
theorem combine1_points : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- Row `p` of the first summand's block at point `t` is row `10000 t + p` of its array. -/
theorem combine1_rows_left (c : Dev nD) (t : Fin cfg1.N) (p : Fin 10000) (q : Fin 64) (n : Fin 100000)
    (hn : n.val = t.val * 10000 + p.val) :
    iblk1 V c 0 t (ix2 p q) = V c main_v30 (ix2 n q) := by
  obtain ⟨e0, e1, -⟩ := combine1_points t
  unfold iblk1
  rw [View.read_apply]
  show V c main_v30 _ = V c main_v30 _
  congr 1
  funext a; apply Fin.ext
  match a with
  | ⟨0, _⟩ => show win1_0.index t (0 : Fin 2) * 10000 + 1 * p.val = n.val; omega
  | ⟨1, _⟩ => show win1_0.index t (1 : Fin 2) * 64 + 1 * q.val = q.val; omega

/-- The same for the second summand. -/
theorem combine1_rows_right (c : Dev nD) (t : Fin cfg1.N) (p : Fin 10000) (q : Fin 64) (n : Fin 100000)
    (hn : n.val = t.val * 10000 + p.val) :
    iblk1 V c 1 t (ix2 p q) = V c main_v18 (ix2 n q) := by
  obtain ⟨-, -, e2, e3, -⟩ := combine1_points t
  unfold iblk1
  rw [View.read_apply]
  show V c main_v18 _ = V c main_v18 _
  congr 1
  funext a; apply Fin.ext
  match a with
  | ⟨0, _⟩ => show win1_1.index t (0 : Fin 2) * 10000 + 1 * p.val = n.val; omega
  | ⟨1, _⟩ => show win1_1.index t (1 : Fin 2) * 64 + 1 * q.val = q.val; omega

/-- The bias vector's block at every point is the whole vector. -/
theorem combine1_bias (c : Dev nD) (t : Fin cfg1.N) (q : Fin 64) :
    iblk1 V c 2 t (ix1 q) = V c main_arg3 (ix1 q) := by
  obtain ⟨-, -, -, -, e4, -⟩ := combine1_points t
  unfold iblk1
  rw [View.read_apply]
  show V c main_arg3 _ = V c main_arg3 _
  congr 1
  funext a; apply Fin.ext
  match a with
  | ⟨0, _⟩ => show win1_2.index t (0 : Fin 1) * 64 + 1 * q.val = q.val; omega

/-- The whole result: entry `(n, q)` is the two summands' entries `(n, q)` added, plus entry `q` of the bias, cut below at zero. -/
def combineArr1 (c : Dev nD) : S100000x64.Idx → EReal :=
  ofCoords fun n q => max ((V c main_v30 (ix2 n q) ⊞ V c main_v18 (ix2 n q)) ⊞ V c main_arg3 (ix1 q)) (0 : EReal)

/-- What point `t` writes back is block `t` of the whole result: a row of a block is a row of its array, and an entry
    of the result only reads the same entry of the summands. -/
theorem combine1_flushed (c : Dev nD) (t : Fin cfg1.N) :
    (dat1 (F := Ideal) V c).flushed 3 t = ((cfg1.win 3).blk t).view.read (Elt Ideal) (combineArr1 V c) := by
  obtain ⟨-, -, -, -, -, e5, e6⟩ := combine1_points t
  show (cfg1.win 3).cut (grid1.coords t) ((dat1 V c).after 3 t) = _
  rw [after1_3, combine1_block]
  funext j
  obtain ⟨p, q, rfl⟩ : ∃ (p : Fin 10000) (q : Fin 64), j = ix2 p q := ⟨j 0, j 1, eq_ix2 j⟩
  have hN : grid1.N = 10 := N_1
  have ht : t.val < grid1.N := t.isLt
  have hlt : t.val * 10000 + p.val < 100000 := by omega
  have hemb : ((cfg1.win 3).blk t).view.emb (ix2 p q) = ix2 (⟨t.val * 10000 + p.val, hlt⟩ : Fin 100000) q := by
    funext a; apply Fin.ext
    match a with
    | ⟨0, _⟩ => show win1_3.index t (0 : Fin 2) * 10000 + 1 * p.val = t.val * 10000 + p.val; omega
    | ⟨1, _⟩ => show win1_3.index t (1 : Fin 2) * 64 + 1 * q.val = q.val; omega
  rw [View.read_apply, hemb]
  show max ((iblk1 V c 0 t (ix2 p q) ⊞ iblk1 V c 1 t (ix2 p q)) ⊞ iblk1 V c 2 t (ix1 q)) (0 : EReal)
    = max ((V c main_v30 (ix2 ⟨t.val * 10000 + p.val, hlt⟩ q) ⊞ V c main_v18 (ix2 ⟨t.val * 10000 + p.val, hlt⟩ q)) ⊞ V c main_arg3 (ix1 q)) (0 : EReal)
  rw [combine1_rows_left V c t p q ⟨_, hlt⟩ rfl, combine1_rows_right V c t p q ⟨_, hlt⟩ rfl, combine1_bias V c t q]

/-- An index lies in point `t`'s output block when each coordinate lies in the block's range on its axis. -/
theorem combine1_mem (t : Fin cfg1.N) (i : S100000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v31).slice (win1_3.rect t)).set ↔ _
  rw [View.set_slice_whole, Rect.mem_set_unit]
  exact Iff.rfl

/-- The ten row blocks cover the array: row `r` lies in the block of point `r / 10000`. -/
theorem combine1_cover (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : grid1.N = 10 := N_1
  have hlt : (i 0).val / 10000 < grid1.N := by omega
  obtain ⟨-, -, -, -, -, e5, e6⟩ := combine1_points ⟨(i 0).val / 10000, hlt⟩
  refine ⟨⟨(i 0).val / 10000, hlt⟩, flush1_3 _, ?_⟩
  rw [combine1_mem]
  intro a
  match a with
  | ⟨0, _⟩ =>
    show win1_3.index ⟨(i 0).val / 10000, hlt⟩ (0 : Fin 2) * 10000 ≤ (i 0).val
      ∧ (i 0).val < win1_3.index ⟨(i 0).val / 10000, hlt⟩ (0 : Fin 2) * 10000 + 10000
    rw [e5]; show (i 0).val / 10000 * 10000 ≤ (i 0).val ∧ (i 0).val < (i 0).val / 10000 * 10000 + 10000; omega
  | ⟨1, _⟩ =>
    show win1_3.index ⟨(i 0).val / 10000, hlt⟩ (1 : Fin 2) * 64 ≤ (i 1).val
      ∧ (i 1).val < win1_3.index ⟨(i 0).val / 10000, hlt⟩ (1 : Fin 2) * 64 + 64
    omega

/-- The output array after the region is the whole result. -/
theorem combine1_array (c : Dev nD) : (dat1 (F := Ideal) V c).arrAt 3 cfg1.N = combineArr1 V c :=
  (dat1 (F := Ideal) V c).arrAt_eq_of_cover 3 (combineArr1 V c) (fun t _ => combine1_flushed V c t) combine1_cover

/-- Entry `(n, q)` of the array this region leaves. -/
theorem combine1_entry (c : Dev nD) (n : Fin 100000) (q : Fin 64) :
    (dat1 (F := Ideal) V c).arrAt 3 cfg1.N (ix2 n q)
      = max ((V c main_v30 (ix2 n q) ⊞ V c main_v18 (ix2 n q)) ⊞ V c main_arg3 (ix1 q)) (0 : EReal) :=
  congrFun (combine1_array V c) (ix2 n q)

/-! ## The second projection: rows of the first layer's output times the second weight matrix -/

/-- One entry of the body's result: the product into the zero accumulator, the changes of float format being the
    identity on extended reals and each cast a cast to the operand's own shape, is the inner product of a row of the
    row block with a column of the weight matrix. -/
theorem project2_payload (x : Vec Ideal S10000x64 .f32) (w : Vec Ideal S64x64 .f32) (p : Fin 10000) (q : Fin 64) :
    k2_pay1 (F := Ideal) x w (ix2 p q) = ∑ k : Fin 64, x (ix2 p k) * w (ix2 k q) := by
  unfold k2_pay1
  rw [shapeCast_self, shapeCast_self]
  exact Cert.LibMatmulPlain.matmul_plain_zero_apply none _ _ p q

/-- What the body leaves in the output buffer: its one store covers the buffer and both loads read whole buffers, so
    the buffer holds the payload, entry by entry. -/
theorem project2_block (x : Vec Ideal S10000x64 .f32) (w : Vec Ideal S64x64 .f32) :
    out2_2 (F := Ideal) x w = ofCoords fun p q => ∑ k : Fin 64, x (ix2 p k) * w (ix2 k q) := by
  unfold out2_2
  rw [View.canon_unit_zero offs2_zero]
  simp only [View.ld_unit_zero (S := S10000x64) offs2_zero, View.ld_unit_zero (S := S64x64) offs2_zero]
  funext j
  obtain ⟨p, q, rfl⟩ : ∃ (p : Fin 10000) (q : Fin 64), j = ix2 p q := ⟨j 0, j 1, eq_ix2 j⟩
  exact project2_payload x w p q

/-- The block indices over the ten grid points: the input and the output move down the rows with the point, the weight
    matrix stays where it is. -/
theorem project2_points : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row `p` of the input's block at point `t` is row `10000 t + p` of the input array. -/
theorem project2_rows (c : Dev nD) (t : Fin cfg2.N) (p : Fin 10000) (k : Fin 64) (n : Fin 100000)
    (hn : n.val = t.val * 10000 + p.val) :
    iblk2 V c 0 t (ix2 p k) = V c main_v31 (ix2 n k) := by
  obtain ⟨e0, e1, -⟩ := project2_points t
  unfold iblk2
  rw [View.read_apply]
  show V c main_v31 _ = V c main_v31 _
  congr 1
  funext a; apply Fin.ext
  match a with
  | ⟨0, _⟩ => show win2_0.index t (0 : Fin 2) * 10000 + 1 * p.val = n.val; omega
  | ⟨1, _⟩ => show win2_0.index t (1 : Fin 2) * 64 + 1 * k.val = k.val; omega

/-- The weight matrix's block at every point is the whole matrix. -/
theorem project2_weight (c : Dev nD) (t : Fin cfg2.N) (k : Fin 64) (q : Fin 64) :
    iblk2 V c 1 t (ix2 k q) = V c main_v34 (ix2 k q) := by
  obtain ⟨-, -, e2, e3, -⟩ := project2_points t
  unfold iblk2
  rw [View.read_apply]
  show V c main_v34 _ = V c main_v34 _
  congr 1
  funext a; apply Fin.ext
  match a with
  | ⟨0, _⟩ => show win2_1.index t (0 : Fin 2) * 64 + 1 * k.val = k.val; omega
  | ⟨1, _⟩ => show win2_1.index t (1 : Fin 2) * 64 + 1 * q.val = q.val; omega

/-- The whole product: entry `(n, q)` is the inner product of row `n` of the input with column `q` of the weight matrix. -/
def projectArr2 (c : Dev nD) : S100000x64.Idx → EReal :=
  ofCoords fun n q => ∑ k : Fin 64, V c main_v31 (ix2 n k) ⬝ V c main_v34 (ix2 k q)

/-- What point `t` writes back is block `t` of the whole product: a row of the block is a row of the array, and the
    product of a row only reads that row. -/
theorem project2_flushed (c : Dev nD) (t : Fin cfg2.N) :
    (dat2 (F := Ideal) V c).flushed 2 t = ((cfg2.win 2).blk t).view.read (Elt Ideal) (projectArr2 V c) := by
  obtain ⟨-, -, -, -, e4, e5⟩ := project2_points t
  show (cfg2.win 2).cut (grid2.coords t) ((dat2 V c).after 2 t) = _
  rw [after2_2, project2_block]
  funext j
  obtain ⟨p, q, rfl⟩ : ∃ (p : Fin 10000) (q : Fin 64), j = ix2 p q := ⟨j 0, j 1, eq_ix2 j⟩
  have hN : grid2.N = 10 := N_2
  have ht : t.val < grid2.N := t.isLt
  have hlt : t.val * 10000 + p.val < 100000 := by omega
  have hemb : ((cfg2.win 2).blk t).view.emb (ix2 p q) = ix2 (⟨t.val * 10000 + p.val, hlt⟩ : Fin 100000) q := by
    funext a; apply Fin.ext
    match a with
    | ⟨0, _⟩ => show win2_2.index t (0 : Fin 2) * 10000 + 1 * p.val = t.val * 10000 + p.val; omega
    | ⟨1, _⟩ => show win2_2.index t (1 : Fin 2) * 64 + 1 * q.val = q.val; omega
  rw [View.read_apply, hemb]
  show (∑ k : Fin 64, iblk2 V c 0 t (ix2 p k) ⬝ iblk2 V c 1 t (ix2 k q))
    = ∑ k : Fin 64, V c main_v31 (ix2 ⟨t.val * 10000 + p.val, hlt⟩ k) ⬝ V c main_v34 (ix2 k q)
  refine Finset.sum_congr rfl fun k _ => ?_
  rw [project2_rows V c t p k ⟨_, hlt⟩ rfl, project2_weight V c t k q]

/-- An index lies in point `t`'s output block when each coordinate lies in the block's range on its axis. -/
theorem project2_mem (t : Fin cfg2.N) (i : S100000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v35).slice (win2_2.rect t)).set ↔ _
  rw [View.set_slice_whole, Rect.mem_set_unit]
  exact Iff.rfl

/-- The ten row blocks cover the array: row `r` lies in the block of point `r / 10000`. -/
theorem project2_cover (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : grid2.N = 10 := N_2
  have hlt : (i 0).val / 10000 < grid2.N := by omega
  obtain ⟨-, -, -, -, e4, e5⟩ := project2_points ⟨(i 0).val / 10000, hlt⟩
  refine ⟨⟨(i 0).val / 10000, hlt⟩, flush2_2 _, ?_⟩
  rw [project2_mem]
  intro a
  match a with
  | ⟨0, _⟩ =>
    show win2_2.index ⟨(i 0).val / 10000, hlt⟩ (0 : Fin 2) * 10000 ≤ (i 0).val
      ∧ (i 0).val < win2_2.index ⟨(i 0).val / 10000, hlt⟩ (0 : Fin 2) * 10000 + 10000
    rw [e4]; show (i 0).val / 10000 * 10000 ≤ (i 0).val ∧ (i 0).val < (i 0).val / 10000 * 10000 + 10000; omega
  | ⟨1, _⟩ =>
    show win2_2.index ⟨(i 0).val / 10000, hlt⟩ (1 : Fin 2) * 64 ≤ (i 1).val
      ∧ (i 1).val < win2_2.index ⟨(i 0).val / 10000, hlt⟩ (1 : Fin 2) * 64 + 64
    omega

/-- The output array after the region is the whole product. -/
theorem project2_array (c : Dev nD) : (dat2 (F := Ideal) V c).arrAt 2 cfg2.N = projectArr2 V c :=
  (dat2 (F := Ideal) V c).arrAt_eq_of_cover 2 (projectArr2 V c) (fun t _ => project2_flushed V c t) project2_cover

/-- Entry `(n, q)` of the array this projection leaves: row `n` of the input against column `q` of the weights. -/
theorem project2_entry (c : Dev nD) (n : Fin 100000) (q : Fin 64) :
    (dat2 (F := Ideal) V c).arrAt 2 cfg2.N (ix2 n q)
      = ∑ k : Fin 64, V c main_v31 (ix2 n k) ⬝ V c main_v34 (ix2 k q) :=
  congrFun (project2_array V c) (ix2 n q)

/-! ## The second combination: the neighbours' mean plus the node's own projection plus the bias -/

/-- One entry of the body's result: the two casts of the row blocks are casts to their own shape, and the bias vector,
    viewed as one row and repeated down the rows, reads at `(p, q)` its entry `q`; so the entry is the sum of the two row blocks and the bias row. -/
theorem combine2_payload (x y : Vec Ideal S10000x32 .f32) (b : Vec Ideal S32 .f32) (p : Fin 10000) (q : Fin 32) :
    k3_pay1 (F := Ideal) x y b (ix2 p q) = (x (ix2 p q) + y (ix2 p q)) + b (ix1 q) := by
  unfold k3_pay1
  rw [shapeCast_self, shapeCast_self, addf_apply, addf_apply, broadcastTo_1b_ab_apply, shapeCast_a_1a_apply]

/-- What the body leaves in the output buffer: its one store covers the buffer and the three loads read whole buffers,
    so the buffer holds the payload, entry by entry. -/
theorem combine2_block (x y : Vec Ideal S10000x32 .f32) (b : Vec Ideal S32 .f32) :
    out3_3 (F := Ideal) x y b = ofCoords fun p q => (x (ix2 p q) + y (ix2 p q)) + b (ix1 q) := by
  unfold out3_3
  rw [View.canon_unit_zero offs2_zero]
  simp only [View.ld_unit_zero (S := S10000x32) offs2_zero, View.ld_unit_zero (S := S32) offs1_zero]
  funext j
  obtain ⟨p, q, rfl⟩ : ∃ (p : Fin 10000) (q : Fin 32), j = ix2 p q := ⟨j 0, j 1, eq_ix2 j⟩
  exact combine2_payload x y b p q

/-- The block indices over the ten grid points: the two summands and the output move down the rows with the point, the
    bias vector stays where it is. -/
theorem combine2_points : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 1) = 0
    ∧ win3_3.index t (0 : Fin 2) = t.val ∧ win3_3.index t (1 : Fin 2) = 0 :=
  (by decide +kernel : ∀ t : Fin grid3.N, _)

/-- Row `p` of the first summand's block at point `t` is row `10000 t + p` of its array. -/
theorem combine2_rows_left (c : Dev nD) (t : Fin cfg3.N) (p : Fin 10000) (q : Fin 32) (n : Fin 100000)
    (hn : n.val = t.val * 10000 + p.val) :
    iblk3 V c 0 t (ix2 p q) = V c main_v49 (ix2 n q) := by
  obtain ⟨e0, e1, -⟩ := combine2_points t
  unfold iblk3
  rw [View.read_apply]
  show V c main_v49 _ = V c main_v49 _
  congr 1
  funext a; apply Fin.ext
  match a with
  | ⟨0, _⟩ => show win3_0.index t (0 : Fin 2) * 10000 + 1 * p.val = n.val; omega
  | ⟨1, _⟩ => show win3_0.index t (1 : Fin 2) * 32 + 1 * q.val = q.val; omega

/-- The same for the second summand. -/
theorem combine2_rows_right (c : Dev nD) (t : Fin cfg3.N) (p : Fin 10000) (q : Fin 32) (n : Fin 100000)
    (hn : n.val = t.val * 10000 + p.val) :
    iblk3 V c 1 t (ix2 p q) = V c main_v37 (ix2 n q) := by
  obtain ⟨-, -, e2, e3, -⟩ := combine2_points t
  unfold iblk3
  rw [View.read_apply]
  show V c main_v37 _ = V c main_v37 _
  congr 1
  funext a; apply Fin.ext
  match a with
  | ⟨0, _⟩ => show win3_1.index t (0 : Fin 2) * 10000 + 1 * p.val = n.val; omega
  | ⟨1, _⟩ => show win3_1.index t (1 : Fin 2) * 32 + 1 * q.val = q.val; omega

/-- The bias vector's block at every point is the whole vector. -/
theorem combine2_bias (c : Dev nD) (t : Fin cfg3.N) (q : Fin 32) :
    iblk3 V c 2 t (ix1 q) = V c main_arg6 (ix1 q) := by
  obtain ⟨-, -, -, -, e4, -⟩ := combine2_points t
  unfold iblk3
  rw [View.read_apply]
  show V c main_arg6 _ = V c main_arg6 _
  congr 1
  funext a; apply Fin.ext
  match a with
  | ⟨0, _⟩ => show win3_2.index t (0 : Fin 1) * 32 + 1 * q.val = q.val; omega

/-- The whole result: entry `(n, q)` is the two summands' entries `(n, q)` added, plus entry `q` of the bias. -/
def combineArr2 (c : Dev nD) : S100000x32.Idx → EReal :=
  ofCoords fun n q => (V c main_v49 (ix2 n q) ⊞ V c main_v37 (ix2 n q)) ⊞ V c main_arg6 (ix1 q)

/-- What point `t` writes back is block `t` of the whole result: a row of a block is a row of its array, and an entry
    of the result only reads the same entry of the summands. -/
theorem combine2_flushed (c : Dev nD) (t : Fin cfg3.N) :
    (dat3 (F := Ideal) V c).flushed 3 t = ((cfg3.win 3).blk t).view.read (Elt Ideal) (combineArr2 V c) := by
  obtain ⟨-, -, -, -, -, e5, e6⟩ := combine2_points t
  show (cfg3.win 3).cut (grid3.coords t) ((dat3 V c).after 3 t) = _
  rw [after3_3, combine2_block]
  funext j
  obtain ⟨p, q, rfl⟩ : ∃ (p : Fin 10000) (q : Fin 32), j = ix2 p q := ⟨j 0, j 1, eq_ix2 j⟩
  have hN : grid3.N = 10 := N_3
  have ht : t.val < grid3.N := t.isLt
  have hlt : t.val * 10000 + p.val < 100000 := by omega
  have hemb : ((cfg3.win 3).blk t).view.emb (ix2 p q) = ix2 (⟨t.val * 10000 + p.val, hlt⟩ : Fin 100000) q := by
    funext a; apply Fin.ext
    match a with
    | ⟨0, _⟩ => show win3_3.index t (0 : Fin 2) * 10000 + 1 * p.val = t.val * 10000 + p.val; omega
    | ⟨1, _⟩ => show win3_3.index t (1 : Fin 2) * 32 + 1 * q.val = q.val; omega
  rw [View.read_apply, hemb]
  show (iblk3 V c 0 t (ix2 p q) ⊞ iblk3 V c 1 t (ix2 p q)) ⊞ iblk3 V c 2 t (ix1 q)
    = (V c main_v49 (ix2 ⟨t.val * 10000 + p.val, hlt⟩ q) ⊞ V c main_v37 (ix2 ⟨t.val * 10000 + p.val, hlt⟩ q)) ⊞ V c main_arg6 (ix1 q)
  rw [combine2_rows_left V c t p q ⟨_, hlt⟩ rfl, combine2_rows_right V c t p q ⟨_, hlt⟩ rfl, combine2_bias V c t q]

/-- An index lies in point `t`'s output block when each coordinate lies in the block's range on its axis. -/
theorem combine2_mem (t : Fin cfg3.N) (i : S100000x32.Idx) :
    i ∈ ((cfg3.win 3).blk t).view.set ↔ ∀ a : Fin 2, win3_3.index t a * S10000x32.size a ≤ (i a).val
      ∧ (i a).val < win3_3.index t a * S10000x32.size a + S10000x32.size a := by
  show i ∈ ((View.whole main_v50).slice (win3_3.rect t)).set ↔ _
  rw [View.set_slice_whole, Rect.mem_set_unit]
  exact Iff.rfl

/-- The ten row blocks cover the array: row `r` lies in the block of point `r / 10000`. -/
theorem combine2_cover (i : S100000x32.Idx) :
    ∃ t : Fin cfg3.N, (cfg3.win 3).flush t = true ∧ i ∈ ((cfg3.win 3).blk t).view.set := by
  have hi0 : (i 0).val < 100000 := (i 0).isLt
  have hi1 : (i 1).val < 32 := (i 1).isLt
  have hN : grid3.N = 10 := N_3
  have hlt : (i 0).val / 10000 < grid3.N := by omega
  obtain ⟨-, -, -, -, -, e5, e6⟩ := combine2_points ⟨(i 0).val / 10000, hlt⟩
  refine ⟨⟨(i 0).val / 10000, hlt⟩, flush3_3 _, ?_⟩
  rw [combine2_mem]
  intro a
  match a with
  | ⟨0, _⟩ =>
    show win3_3.index ⟨(i 0).val / 10000, hlt⟩ (0 : Fin 2) * 10000 ≤ (i 0).val
      ∧ (i 0).val < win3_3.index ⟨(i 0).val / 10000, hlt⟩ (0 : Fin 2) * 10000 + 10000
    rw [e5]; show (i 0).val / 10000 * 10000 ≤ (i 0).val ∧ (i 0).val < (i 0).val / 10000 * 10000 + 10000; omega
  | ⟨1, _⟩ =>
    show win3_3.index ⟨(i 0).val / 10000, hlt⟩ (1 : Fin 2) * 32 ≤ (i 1).val
      ∧ (i 1).val < win3_3.index ⟨(i 0).val / 10000, hlt⟩ (1 : Fin 2) * 32 + 32
    omega

/-- The output array after the region is the whole result. -/
theorem combine2_array (c : Dev nD) : (dat3 (F := Ideal) V c).arrAt 3 cfg3.N = combineArr2 V c :=
  (dat3 (F := Ideal) V c).arrAt_eq_of_cover 3 (combineArr2 V c) (fun t _ => combine2_flushed V c t) combine2_cover

/-- Entry `(n, q)` of the array this region leaves. -/
theorem combine2_entry (c : Dev nD) (n : Fin 100000) (q : Fin 32) :
    (dat3 (F := Ideal) V c).arrAt 3 cfg3.N (ix2 n q)
      = (V c main_v49 (ix2 n q) ⊞ V c main_v37 (ix2 n q)) ⊞ V c main_arg6 (ix1 q) :=
  congrFun (combine2_array V c) (ix2 n q)

end Cert.KernelIdeal.RegionArrays
end
-- ==== Proof.KernelEntry.lean ====
/-
  The idealized kernel's result array, entry by entry.

  Following the run boundary by boundary: the first region leaves the node features times the first layer's
  side-by-side weights; the stretch after it gathers the left half's rows along the edges, sums them per destination
  node and scales by the reciprocal divisors, and keeps the right half; the second region adds the two and the bias
  and cuts below at zero: the hidden features, which are the project-first arrangement of layer 1, rectified. The third
  region, the last stretch and the fourth region do the same with the hidden features and the second layer's weights,
  without the cut. So each entry of the result array is the project-first two-layer network of the launch contents
  of the argument arrays.
-/
import proofs.«145483_j81544249081903_2_alg».proof.Proof.Gen.KernelIdeal.Frame
import proofs.«145483_j81544249081903_2_alg».proof.Proof.Stretches
import proofs.«145483_j81544249081903_2_alg».proof.Proof.Walks
import proofs.«145483_j81544249081903_2_alg».proof.Proof.Entries
import proofs.«145483_j81544249081903_2_alg».proof.Proof.RegionArrays
import proofs.«145483_j81544249081903_2_alg».proof.Proof.LibMeanAggLayer

set_option maxRecDepth 16384

noncomputable section

open scoped BigOperators

namespace Cert.KernelIdeal.KernelEntry

open Cert.KernelIdeal Cert.KernelIdeal.Gen Cert.KernelIdeal.Stretches Cert.KernelIdeal.Walks Cert.KernelIdeal.Entries
open Cert.KernelIdeal.RegionArrays
open Idealize.ShloMosaic Idealize.ShloMosaic.ValueIdx Idealize.ShloMosaic.TcCoe Idealize.ShloMosaic.StableHlo Idealize.SL.Sem

/-- The contents of a float buffer of shape `S`, as an array of extended reals. -/
abbrev arr (S : Shape) (x : FVec Ideal S .f32) : FVec Ideal S .f32 := x

variable (m : (ℓ : Loc nD τ sig) → Buf (Elt Ideal) ℓ) (ρ : Dev nD → PrngReg) (c : Dev nD)

/-- Region 0's result: the features projected through layer 1's side-by-side weights. -/
theorem proj1_entry (a : Fin 100000) (j : Fin 128) :
    arr S100000x128 (W2 m ρ c (Proc.devRef .tc main_v16)) (ix2 a j)
      = ∑ k : Fin 128, arr S100000x128 (m ((c : Thread nD τ).loc main_arg0)) (ix2 a k) * weights1 (m ((c : Thread nD τ).loc main_arg2)) (m ((c : Thread nD τ).loc main_arg4)) (ix2 k j) := by
  refine (congrFun ((W2_arr m ρ c 2).trans (project1_array (V1 m ρ) c)) (ix2 a j)).trans ?_
  show ∑ k : Fin 128, arr S100000x128 (W1 m ρ c (Proc.devRef .tc main_arg0)) (ix2 a k) * arr S128x128 (W1 m ρ c (Proc.devRef .tc main_v15)) (ix2 k j) = _
  rw [W1_arg0, W1_v15]

/-- Region 1's result, the hidden features: layer 1 rectified. -/
theorem hidden_entry (a : Fin 100000) (k : Fin 64) :
    arr S100000x64 (W4 m ρ c (Proc.devRef .tc main_v31)) (ix2 a k) = max (Cert.Sage.layerP (rowOfEdge (srcVec (m ((c : Thread nD τ).loc main_arg1)))) (segOfEdge (dstVec (m ((c : Thread nD τ).loc main_arg1)))) (fun a' k' => arr S100000x128 (m ((c : Thread nD τ).loc main_arg0)) (ix2 a' k')) (fun c' k' => arr S64x128 (m ((c : Thread nD τ).loc main_arg2)) (ix2 c' k')) (fun c' k' => arr S64x128 (m ((c : Thread nD τ).loc main_arg4)) (ix2 c' k')) (fun c' => arr S64 (m ((c : Thread nD τ).loc main_arg3)) (ix1 c')) a k) 0 := by
  refine (congrFun ((W4_arr m ρ c 3).trans (combine1_array (V3 m ρ) c)) (ix2 a k)).trans ?_
  show max ((arr S100000x64 (W3 m ρ c (Proc.devRef .tc main_v30)) (ix2 a k) + arr S100000x64 (W3 m ρ c (Proc.devRef .tc main_v18)) (ix2 a k))
    + arr S64 (W3 m ρ c (Proc.devRef .tc main_arg3)) (ix1 k)) 0 = _
  rw [show W3 m ρ c (Proc.devRef .tc main_v30) = _ from stretch1_v30 (W2 m ρ c),
    show W3 m ρ c (Proc.devRef .tc main_v18) = _ from stretch1_v18 (W2 m ρ c), W3_arg3, W2_v1, W2_v3, W2_v12]
  exact congrArg (fun z => max z 0) (layer1_entry (m ((c : Thread nD τ).loc main_arg0)) (m ((c : Thread nD τ).loc main_arg2)) (m ((c : Thread nD τ).loc main_arg4)) (m ((c : Thread nD τ).loc main_arg3)) (srcVec (m ((c : Thread nD τ).loc main_arg1))) (dstVec (m ((c : Thread nD τ).loc main_arg1)))
    (W2 m ρ c (Proc.devRef .tc main_v16)) (proj1_entry m ρ c) a k)

/-- Region 2's result: the hidden features projected through layer 2's side-by-side weights. -/
theorem proj2_entry (a : Fin 100000) (j : Fin 64) :
    arr S100000x64 (W6 m ρ c (Proc.devRef .tc main_v35)) (ix2 a j)
      = ∑ k : Fin 64, arr S100000x64 (W4 m ρ c (Proc.devRef .tc main_v31)) (ix2 a k) * weights2 (m ((c : Thread nD τ).loc main_arg5)) (m ((c : Thread nD τ).loc main_arg7)) (ix2 k j) := by
  refine (congrFun ((W6_arr m ρ c 2).trans (project2_array (V5 m ρ) c)) (ix2 a j)).trans ?_
  show ∑ k : Fin 64, arr S100000x64 (W5 m ρ c (Proc.devRef .tc main_v31)) (ix2 a k) * arr S64x64 (W5 m ρ c (Proc.devRef .tc main_v34)) (ix2 k j) = _
  rw [W5_v31, W5_v34]

/-- THE RESULT ARRAY AT AN ENTRY: the two-layer network, each layer projecting before aggregating, of the launch
    contents of the argument arrays. -/
theorem kernel_entry (n : Fin 100000) (q : Fin 32) :
    arr S100000x32 (W8 m ρ c (Proc.devRef .tc main_v50)) (ix2 n q)
      = Cert.Sage.layerP (rowOfEdge (srcVec (m ((c : Thread nD τ).loc main_arg1)))) (segOfEdge (dstVec (m ((c : Thread nD τ).loc main_arg1))))
          (fun a k => max (Cert.Sage.layerP (rowOfEdge (srcVec (m ((c : Thread nD τ).loc main_arg1)))) (segOfEdge (dstVec (m ((c : Thread nD τ).loc main_arg1)))) (fun a' k' => arr S100000x128 (m ((c : Thread nD τ).loc main_arg0)) (ix2 a' k')) (fun c' k' => arr S64x128 (m ((c : Thread nD τ).loc main_arg2)) (ix2 c' k')) (fun c' k' => arr S64x128 (m ((c : Thread nD τ).loc main_arg4)) (ix2 c' k')) (fun c' => arr S64 (m ((c : Thread nD τ).loc main_arg3)) (ix1 c')) a k) 0)
          (fun c' k' => arr S32x64 (m ((c : Thread nD τ).loc main_arg5)) (ix2 c' k')) (fun c' k' => arr S32x64 (m ((c : Thread nD τ).loc main_arg7)) (ix2 c' k'))
          (fun c' => arr S32 (m ((c : Thread nD τ).loc main_arg6)) (ix1 c')) n q := by
  refine (congrFun ((W8_arr m ρ c 3).trans (combine2_array (V7 m ρ) c)) (ix2 n q)).trans ?_
  show (arr S100000x32 (W7 m ρ c (Proc.devRef .tc main_v49)) (ix2 n q) + arr S100000x32 (W7 m ρ c (Proc.devRef .tc main_v37)) (ix2 n q))
    + arr S32 (W7 m ρ c (Proc.devRef .tc main_arg6)) (ix1 q) = _
  rw [show W7 m ρ c (Proc.devRef .tc main_v49) = _ from stretch3_v49 (W6 m ρ c),
    show W7 m ρ c (Proc.devRef .tc main_v37) = _ from stretch3_v37 (W6 m ρ c), W7_arg6, W6_v1, W6_v3, W6_v12]
  refine (layer2_entry (W4 m ρ c (Proc.devRef .tc main_v31)) (m ((c : Thread nD τ).loc main_arg5)) (m ((c : Thread nD τ).loc main_arg7)) (m ((c : Thread nD τ).loc main_arg6)) (srcVec (m ((c : Thread nD τ).loc main_arg1))) (dstVec (m ((c : Thread nD τ).loc main_arg1)))
    (W6 m ρ c (Proc.devRef .tc main_v35)) (proj2_entry m ρ c) n q).trans ?_
  exact congrArg (fun f => Cert.Sage.layerP (rowOfEdge (srcVec (m ((c : Thread nD τ).loc main_arg1)))) (segOfEdge (dstVec (m ((c : Thread nD τ).loc main_arg1)))) f
      (fun c' k' => arr S32x64 (m ((c : Thread nD τ).loc main_arg5)) (ix2 c' k')) (fun c' k' => arr S32x64 (m ((c : Thread nD τ).loc main_arg7)) (ix2 c' k'))
      (fun c' => arr S32 (m ((c : Thread nD τ).loc main_arg6)) (ix1 c')) n q)
    (funext fun a => funext fun k => hidden_entry m ρ c a k)

end Cert.KernelIdeal.KernelEntry

end
-- ==== Proof.RefEntry.lean ====
/-
  The reference program, read at one entry of its result.

  The reference computes a two-layer mean-aggregating graph convolution the direct way. For one layer with node
  features `X`, it copies for every edge the feature row of the edge's source node, adds each copied row into the
  row of the edge's destination node starting from zeros, counts the edges into each node the same way (adding a one
  per edge into zeros), divides every aggregated row by the count or by one where the count is smaller, multiplies
  the mean by the first weight matrix, adds the bias, and adds the node's own features times the second weight
  matrix. Between the layers every entry is replaced by its maximum with zero.

  Entry by entry this is the aggregate-first arrangement of a layer: the row copy reads the table at the clamped
  source row of the edge; adding rows into zeros is zero plus the sum over the edges whose destination is the node;
  the count is zero plus a sum of ones over the same edges; the rest is pointwise, or a finite sum over the feature
  index. No algebraic law is used here: the two sides are the same expression, sum for sum and factor for factor.
  The second layer reads the first layer's output only through its entries, so its lemmas keep that array as one
  unopened term, and only the last step puts the first layer's entries in.
-/
import proofs.«145483_j81544249081903_2_alg».proof.Proof.Gen.ReferenceIdeal.Read
import proofs.«145483_j81544249081903_2_alg».proof.Proof.LibMeanAggLayer
import proofs.«145483_j81544249081903_2_alg».proof.Proof.LibSegmentSum
import proofs.«145483_j81544249081903_2_alg».proof.Proof.LibGatherRows
import Idealize.ShloMosaic.Lib.ValueIdx
import Idealize.ShloMosaic.Lib.Pipeline.Value
import Idealize.ShloMosaic.PureOps.Ideal.Laws

noncomputable section

open scoped BigOperators

namespace Cert.ReferenceIdeal.RefEntry

open Cert.ReferenceIdeal Cert.ReferenceIdeal.Gen Idealize.ShloMosaic Idealize.ShloMosaic.ValueIdx

/-! ## The two index columns -/

/-- The node an edge reads from: its first-row entry, with a negative number wrapped once by the node count, then
    clamped into the table as the row copy clamps it. -/
def srcRow (x1 : (⟨S2x600000, .i32⟩ : BufTy).Contents (Elt Ideal)) : Fin 600000 → Fin 100000 :=
  Cert.GatherRows.rowOf (by norm_num : 0 < 100000) (Read.val_main_v9 (F := Ideal) x1)

/-- The node an edge adds into: its second-row entry, read signed; an edge whose number is no node is dropped. -/
def dstSeg (x1 : (⟨S2x600000, .i32⟩ : BufTy).Contents (Elt Ideal)) : Fin 600000 → Int :=
  Cert.SegmentSum.seg (Read.val_main_v12 (F := Ideal) x1)

/-! The second layer and the two counts recompute the same columns from the same input. -/

theorem srcCol2_eq (x1 : (⟨S2x600000, .i32⟩ : BufTy).Contents (Elt Ideal)) :
    Read.val_main_v41 (F := Ideal) x1 = Read.val_main_v9 (F := Ideal) x1 := rfl

theorem dstColCount1_eq (x1 : (⟨S2x600000, .i32⟩ : BufTy).Contents (Elt Ideal)) :
    Read.val_main_v16 (F := Ideal) x1 = Read.val_main_v12 (F := Ideal) x1 := rfl

theorem dstCol2_eq (x1 : (⟨S2x600000, .i32⟩ : BufTy).Contents (Elt Ideal)) :
    Read.val_main_v44 (F := Ideal) x1 = Read.val_main_v12 (F := Ideal) x1 := rfl

theorem dstColCount2_eq (x1 : (⟨S2x600000, .i32⟩ : BufTy).Contents (Elt Ideal)) :
    Read.val_main_v48 (F := Ideal) x1 = Read.val_main_v12 (F := Ideal) x1 := rfl

/-! ## Adding into zeros, and copying rows, over arbitrary operands -/

/-- Adding one entry per edge into a vector indexed by nodes. -/
theorem addEntries_apply (x : (⟨S100000, .f32⟩ : BufTy).Contents (Elt Ideal))
    (idx : (⟨S600000x1, .i32⟩ : BufTy).Contents (Elt Ideal)) (upd : (⟨S600000, .f32⟩ : BufTy).Contents (Elt Ideal))
    (n : Fin 100000) :
    Host.scatterAdd (F := Ideal) (φ := .f32) scatter_S100000_S600000x1_S600000_n_0_0_1 x idx upd (ix1 n)
      = x (ix1 n) + ∑ e ∈ Cert.Sage.inEdges (Cert.SegmentSum.seg idx) n, upd (ix1 e) :=
  Cert.SegmentSum.entries_apply scatter_S100000_S600000x1_S600000_n_0_0_1.wf x idx upd n

/-- Adding one row of 128 entries per edge into a table indexed by nodes. -/
theorem addRows128_apply (x : (⟨S100000x128, .f32⟩ : BufTy).Contents (Elt Ideal))
    (idx : (⟨S600000x1, .i32⟩ : BufTy).Contents (Elt Ideal)) (upd : (⟨S600000x128, .f32⟩ : BufTy).Contents (Elt Ideal))
    (n : Fin 100000) (k : Fin 128) :
    Host.scatterAdd (F := Ideal) (φ := .f32) scatter_S100000x128_S600000x1_S600000x128_1_0_0_1 x idx upd (ix2 n k)
      = x (ix2 n k) + ∑ e ∈ Cert.Sage.inEdges (Cert.SegmentSum.seg idx) n, upd (ix2 e k) :=
  Cert.SegmentSum.rows_apply scatter_S100000x128_S600000x1_S600000x128_1_0_0_1.wf x idx upd n k

/-- Adding one row of 64 entries per edge into a table indexed by nodes. -/
theorem addRows64_apply (x : (⟨S100000x64, .f32⟩ : BufTy).Contents (Elt Ideal))
    (idx : (⟨S600000x1, .i32⟩ : BufTy).Contents (Elt Ideal)) (upd : (⟨S600000x64, .f32⟩ : BufTy).Contents (Elt Ideal))
    (n : Fin 100000) (k : Fin 64) :
    Host.scatterAdd (F := Ideal) (φ := .f32) scatter_S100000x64_S600000x1_S600000x64_1_0_0_1 x idx upd (ix2 n k)
      = x (ix2 n k) + ∑ e ∈ Cert.Sage.inEdges (Cert.SegmentSum.seg idx) n, upd (ix2 e k) :=
  Cert.SegmentSum.rows_apply scatter_S100000x64_S600000x1_S600000x64_1_0_0_1.wf x idx upd n k

/-- Copying, for every edge, a row of 128 entries of a table indexed by nodes. -/
theorem copyRows128_apply (x : (⟨S100000x128, .f32⟩ : BufTy).Contents (Elt Ideal))
    (idx : (⟨S600000x1, .i32⟩ : BufTy).Contents (Elt Ideal)) (e : Fin 600000) (k : Fin 128) :
    Host.gather gather_S100000x128_S600000x1_S600000x128_1_0_n_n_0_1_1128 x idx (ix2 e k)
      = x (ix2 (Cert.GatherRows.rowOf (by norm_num : 0 < 100000) idx e) k) :=
  Cert.GatherRows.gather_rows_apply (by norm_num : 0 < 100000)
    gather_S100000x128_S600000x1_S600000x128_1_0_n_n_0_1_1128.wf x idx e k

/-- Copying, for every edge, a row of 64 entries of a table indexed by nodes. -/
theorem copyRows64_apply (x : (⟨S100000x64, .f32⟩ : BufTy).Contents (Elt Ideal))
    (idx : (⟨S600000x1, .i32⟩ : BufTy).Contents (Elt Ideal)) (e : Fin 600000) (k : Fin 64) :
    Host.gather gather_S100000x64_S600000x1_S600000x64_1_0_n_n_0_1_164 x idx (ix2 e k)
      = x (ix2 (Cert.GatherRows.rowOf (by norm_num : 0 < 100000) idx e) k) :=
  Cert.GatherRows.gather_rows_apply (by norm_num : 0 < 100000)
    gather_S100000x64_S600000x1_S600000x64_1_0_n_n_0_1_164.wf x idx e k

/-! ## The constants: the zero word is zero, the one word is one -/

theorem zeroVec1_apply (i : S100000.Idx) : Read.val_main_v15 (F := Ideal) i = 0 := by
  rw [Read.val_main_v15_apply, Read.val_main_cst_2_apply, Ideal.ofBits_def, Ideal.ofBits_zero_f32]

theorem zeroVec2_apply (i : S100000.Idx) : Read.val_main_v47 (F := Ideal) i = 0 := by
  rw [Read.val_main_v47_apply, Read.val_main_cst_8_apply, Ideal.ofBits_def, Ideal.ofBits_zero_f32]

theorem zeroTable1_apply (i : S100000x128.Idx) : Read.val_main_v11 (F := Ideal) i = 0 := by
  rw [Read.val_main_v11_apply, Read.val_main_cst_apply, Ideal.ofBits_def, Ideal.ofBits_zero_f32]

theorem zeroTable2_apply (i : S100000x64.Idx) : Read.val_main_v43 (F := Ideal) i = 0 := by
  rw [Read.val_main_v43_apply, Read.val_main_cst_6_apply, Ideal.ofBits_def, Ideal.ofBits_zero_f32]

theorem reluZero_apply (i : S100000x64.Idx) : Read.val_main_call0_v0 (F := Ideal) i = 0 := by
  rw [Read.val_main_call0_v0_apply, Read.val_main_call0_cst_apply, Ideal.ofBits_def, Ideal.ofBits_zero_f32]

theorem onePerEdge1_apply (i : S600000.Idx) : Read.val_main_v14 (F := Ideal) i = 1 := by
  rw [Read.val_main_v14_apply, Read.val_main_cst_1_apply, Ideal.ofBits_def, Cert.Sage.ofBits_one_f32]

theorem onePerEdge2_apply (i : S600000.Idx) : Read.val_main_v46 (F := Ideal) i = 1 := by
  rw [Read.val_main_v46_apply, Read.val_main_cst_7_apply, Ideal.ofBits_def, Cert.Sage.ofBits_one_f32]

theorem oneFloor1_apply (i : S100000.Idx) : Read.val_main_v18 (F := Ideal) i = 1 := by
  rw [Read.val_main_v18_apply, Read.val_main_cst_3_apply, Ideal.ofBits_def, Cert.Sage.ofBits_one_f32]

theorem oneFloor2_apply (i : S100000.Idx) : Read.val_main_v50 (F := Ideal) i = 1 := by
  rw [Read.val_main_v50_apply, Read.val_main_cst_9_apply, Ideal.ofBits_def, Cert.Sage.ofBits_one_f32]

/-! ## The mean's divisor at a node -/

/-- First layer: the count of the edges into node `n`, floored at one. -/
theorem divisor1_apply (x1 : (⟨S2x600000, .i32⟩ : BufTy).Contents (Elt Ideal)) (n : Fin 100000) :
    Read.val_main_v19 (F := Ideal) x1 (ix1 n) = Cert.Sage.denom (dstSeg x1) n := by
  rw [Read.val_main_v19_apply, Ideal.maximumf_def, oneFloor1_apply]
  unfold Read.val_main_v17
  rw [addEntries_apply, zeroVec1_apply, dstColCount1_eq, Finset.sum_congr rfl (fun e _ => onePerEdge1_apply (ix1 e))]
  rfl

/-- Second layer: the same count, recomputed. -/
theorem divisor2_apply (x1 : (⟨S2x600000, .i32⟩ : BufTy).Contents (Elt Ideal)) (n : Fin 100000) :
    Read.val_main_v51 (F := Ideal) x1 (ix1 n) = Cert.Sage.denom (dstSeg x1) n := by
  rw [Read.val_main_v51_apply, Ideal.maximumf_def, oneFloor2_apply]
  unfold Read.val_main_v49
  rw [addEntries_apply, zeroVec2_apply, dstColCount2_eq, Finset.sum_congr rfl (fun e _ => onePerEdge2_apply (ix1 e))]
  rfl

/-! ## First layer -/

/-- The rows added into node `n`, at feature `k`: zero plus the source rows of the edges into `n`. -/
theorem agg1_apply (x0 : (⟨S100000x128, .f32⟩ : BufTy).Contents (Elt Ideal)) (x1 : (⟨S2x600000, .i32⟩ : BufTy).Contents (Elt Ideal)) (n : Fin 100000) (k : Fin 128) :
    Read.val_main_v13 (F := Ideal) x0 x1 (ix2 n k)
      = 0 + ∑ e ∈ Cert.Sage.inEdges (dstSeg x1) n, x0 (ix2 (srcRow x1 e) k) := by
  unfold Read.val_main_v13
  rw [addRows128_apply, zeroTable1_apply]
  refine congrArg (fun s => (0 : EReal) + s) (Finset.sum_congr rfl fun e _ => ?_)
  unfold Read.val_main_v10
  exact copyRows128_apply x0 _ e k

/-- The mean over the edges into node `n`, at feature `k`. -/
theorem mean1_apply (x0 : (⟨S100000x128, .f32⟩ : BufTy).Contents (Elt Ideal)) (x1 : (⟨S2x600000, .i32⟩ : BufTy).Contents (Elt Ideal)) (n : Fin 100000) (k : Fin 128) :
    Read.val_main_v22 (F := Ideal) x0 x1 (ix2 n k)
      = Ideal.div (0 + ∑ e ∈ Cert.Sage.inEdges (dstSeg x1) n, x0 (ix2 (srcRow x1 e) k))
          (Cert.Sage.denom (dstSeg x1) n) := by
  have hi : Read.idx_main_v20 (Read.idx_main_v21 (ix2 n k)) = ix1 n :=
    funext fun a => Fin.ext (by match a with | ⟨0, _⟩ => rfl)
  rw [Read.val_main_v22_apply, Ideal.hostDivf_def, agg1_apply, Read.val_main_v21_apply, Read.val_main_v20_apply, hi,
    divisor1_apply]

/-- The first layer's output at `(n, c)` is the aggregate-first layer of the inputs. -/
theorem layer1_apply (x0 : (⟨S100000x128, .f32⟩ : BufTy).Contents (Elt Ideal)) (x1 : (⟨S2x600000, .i32⟩ : BufTy).Contents (Elt Ideal)) (x2 : (⟨S64x128, .f32⟩ : BufTy).Contents (Elt Ideal)) (x3 : (⟨S64, .f32⟩ : BufTy).Contents (Elt Ideal)) (x4 : (⟨S64x128, .f32⟩ : BufTy).Contents (Elt Ideal)) (n : Fin 100000) (c : Fin 64) :
    Read.val_main_v30 (F := Ideal) x0 x1 x2 x3 x4 (ix2 n c)
      = Cert.Sage.layerA (srcRow x1) (dstSeg x1) (fun a' k' => x0 (ix2 a' k')) (fun c' k' => x2 (ix2 c' k'))
          (fun c' k' => x4 (ix2 c' k')) (fun c' => x3 (ix1 c')) n c := by
  have hl : ∀ k : Fin 128, Read.lidx_main_v24 (ix2 n c) k = ix2 n k := fun k =>
    funext fun a => Fin.ext (by match a with | ⟨0, _⟩ => rfl | ⟨1, _⟩ => rfl)
  have hr : ∀ k : Fin 128, Read.idx_main_v23 (Read.ridx_main_v24 (ix2 n c) k) = ix2 c k := fun k =>
    funext fun a => Fin.ext (by match a with | ⟨0, _⟩ => rfl | ⟨1, _⟩ => rfl)
  have hb : Read.idx_main_v25 (Read.idx_main_v26 (ix2 n c)) = ix1 c :=
    funext fun a => Fin.ext (by match a with | ⟨0, _⟩ => rfl)
  have hl' : ∀ k : Fin 128, Read.lidx_main_v29 (ix2 n c) k = ix2 n k := fun k =>
    funext fun a => Fin.ext (by match a with | ⟨0, _⟩ => rfl | ⟨1, _⟩ => rfl)
  have hr' : ∀ k : Fin 128, Read.idx_main_v28 (Read.ridx_main_v29 (ix2 n c) k) = ix2 c k := fun k =>
    funext fun a => Fin.ext (by match a with | ⟨0, _⟩ => rfl | ⟨1, _⟩ => rfl)
  rw [Read.val_main_v30_apply, Read.val_main_v27_apply, Read.val_main_v24_apply, Read.val_main_v26_apply,
    Read.val_main_v25_apply, Read.val_main_v29_apply, Ideal.addf_def, Ideal.addf_def, hb]
  unfold Cert.Sage.layerA
  refine congrArg₂ (fun s t : EReal => s + t)
    (congrArg (fun s : EReal => s + x3 (ix1 c)) (Finset.sum_congr rfl fun k _ => ?_))
    (Finset.sum_congr rfl fun k _ => ?_)
  · rw [hl, mean1_apply, Read.val_main_v23_apply, hr]
  · rw [hl', Read.val_main_v28_apply, hr']

/-- Between the layers: the maximum with zero. -/
theorem relu1_apply (x0 : (⟨S100000x128, .f32⟩ : BufTy).Contents (Elt Ideal)) (x1 : (⟨S2x600000, .i32⟩ : BufTy).Contents (Elt Ideal)) (x2 : (⟨S64x128, .f32⟩ : BufTy).Contents (Elt Ideal)) (x3 : (⟨S64, .f32⟩ : BufTy).Contents (Elt Ideal)) (x4 : (⟨S64x128, .f32⟩ : BufTy).Contents (Elt Ideal)) (n : Fin 100000) (c : Fin 64) :
    Read.val_main_v31 (F := Ideal) x0 x1 x2 x3 x4 (ix2 n c)
      = max (Cert.Sage.layerA (srcRow x1) (dstSeg x1) (fun a' k' => x0 (ix2 a' k')) (fun c' k' => x2 (ix2 c' k'))
          (fun c' k' => x4 (ix2 c' k')) (fun c' => x3 (ix1 c')) n c) 0 := by
  rw [Read.val_main_v31_apply, Ideal.maximumf_def, reluZero_apply, layer1_apply]

/-! ## Second layer, over the first layer's array as it stands -/

/-- The rows added into node `n`, at feature `k`, of the first layer's array. -/
theorem agg2_apply (x0 : (⟨S100000x128, .f32⟩ : BufTy).Contents (Elt Ideal)) (x1 : (⟨S2x600000, .i32⟩ : BufTy).Contents (Elt Ideal)) (x2 : (⟨S64x128, .f32⟩ : BufTy).Contents (Elt Ideal)) (x3 : (⟨S64, .f32⟩ : BufTy).Contents (Elt Ideal)) (x4 : (⟨S64x128, .f32⟩ : BufTy).Contents (Elt Ideal)) (n : Fin 100000) (k : Fin 64) :
    Read.val_main_v45 (F := Ideal) x0 x1 x2 x3 x4 (ix2 n k)
      = 0 + ∑ e ∈ Cert.Sage.inEdges (dstSeg x1) n, Read.val_main_v31 (F := Ideal) x0 x1 x2 x3 x4 (ix2 (srcRow x1 e) k) := by
  unfold Read.val_main_v45
  rw [addRows64_apply, zeroTable2_apply, dstCol2_eq]
  refine congrArg (fun s => (0 : EReal) + s) (Finset.sum_congr rfl fun e _ => ?_)
  unfold Read.val_main_v42
  rw [copyRows64_apply, srcCol2_eq]
  rfl

/-- The mean over the edges into node `n`, at feature `k`, of the first layer's array. -/
theorem mean2_apply (x0 : (⟨S100000x128, .f32⟩ : BufTy).Contents (Elt Ideal)) (x1 : (⟨S2x600000, .i32⟩ : BufTy).Contents (Elt Ideal)) (x2 : (⟨S64x128, .f32⟩ : BufTy).Contents (Elt Ideal)) (x3 : (⟨S64, .f32⟩ : BufTy).Contents (Elt Ideal)) (x4 : (⟨S64x128, .f32⟩ : BufTy).Contents (Elt Ideal)) (n : Fin 100000) (k : Fin 64) :
    Read.val_main_v54 (F := Ideal) x0 x1 x2 x3 x4 (ix2 n k)
      = Ideal.div (0 + ∑ e ∈ Cert.Sage.inEdges (dstSeg x1) n,
            Read.val_main_v31 (F := Ideal) x0 x1 x2 x3 x4 (ix2 (srcRow x1 e) k))
          (Cert.Sage.denom (dstSeg x1) n) := by
  have hi : Read.idx_main_v52 (Read.idx_main_v53 (ix2 n k)) = ix1 n :=
    funext fun a => Fin.ext (by match a with | ⟨0, _⟩ => rfl)
  rw [Read.val_main_v54_apply, Ideal.hostDivf_def, agg2_apply, Read.val_main_v53_apply, Read.val_main_v52_apply, hi,
    divisor2_apply]

/-- The second layer's output at `(n, c)` is the aggregate-first layer of the first layer's array. -/
theorem layer2_apply (x0 : (⟨S100000x128, .f32⟩ : BufTy).Contents (Elt Ideal)) (x1 : (⟨S2x600000, .i32⟩ : BufTy).Contents (Elt Ideal)) (x2 : (⟨S64x128, .f32⟩ : BufTy).Contents (Elt Ideal)) (x3 : (⟨S64, .f32⟩ : BufTy).Contents (Elt Ideal)) (x4 : (⟨S64x128, .f32⟩ : BufTy).Contents (Elt Ideal)) (x5 : (⟨S32x64, .f32⟩ : BufTy).Contents (Elt Ideal)) (x6 : (⟨S32, .f32⟩ : BufTy).Contents (Elt Ideal)) (x7 : (⟨S32x64, .f32⟩ : BufTy).Contents (Elt Ideal)) (n : Fin 100000) (c : Fin 32) :
    Read.val_main_v62 (F := Ideal) x0 x1 x2 x3 x4 x5 x6 x7 (ix2 n c)
      = Cert.Sage.layerA (srcRow x1) (dstSeg x1)
          (fun a' k' => Read.val_main_v31 (F := Ideal) x0 x1 x2 x3 x4 (ix2 a' k'))
          (fun c' k' => x5 (ix2 c' k')) (fun c' k' => x7 (ix2 c' k')) (fun c' => x6 (ix1 c')) n c := by
  have hl : ∀ k : Fin 64, Read.lidx_main_v56 (ix2 n c) k = ix2 n k := fun k =>
    funext fun a => Fin.ext (by match a with | ⟨0, _⟩ => rfl | ⟨1, _⟩ => rfl)
  have hr : ∀ k : Fin 64, Read.idx_main_v55 (Read.ridx_main_v56 (ix2 n c) k) = ix2 c k := fun k =>
    funext fun a => Fin.ext (by match a with | ⟨0, _⟩ => rfl | ⟨1, _⟩ => rfl)
  have hb : Read.idx_main_v57 (Read.idx_main_v58 (ix2 n c)) = ix1 c :=
    funext fun a => Fin.ext (by match a with | ⟨0, _⟩ => rfl)
  have hl' : ∀ k : Fin 64, Read.lidx_main_v61 (ix2 n c) k = ix2 n k := fun k =>
    funext fun a => Fin.ext (by match a with | ⟨0, _⟩ => rfl | ⟨1, _⟩ => rfl)
  have hr' : ∀ k : Fin 64, Read.idx_main_v60 (Read.ridx_main_v61 (ix2 n c) k) = ix2 c k := fun k =>
    funext fun a => Fin.ext (by match a with | ⟨0, _⟩ => rfl | ⟨1, _⟩ => rfl)
  rw [Read.val_main_v62_apply, Read.val_main_v59_apply, Read.val_main_v56_apply, Read.val_main_v58_apply,
    Read.val_main_v57_apply, Read.val_main_v61_apply, Ideal.addf_def, Ideal.addf_def, hb]
  unfold Cert.Sage.layerA
  refine congrArg₂ (fun s t : EReal => s + t)
    (congrArg (fun s : EReal => s + x6 (ix1 c)) (Finset.sum_congr rfl fun k _ => ?_))
    (Finset.sum_congr rfl fun k _ => ?_)
  · rw [hl, mean2_apply, Read.val_main_v55_apply, hr]
  · rw [hl', Read.val_main_v60_apply, hr']

/-! ## The reference's result at an entry -/

/-- THE REFERENCE AT `(n, c)`: the aggregate-first layer applied to the maximum with zero of the aggregate-first
    layer of the inputs. -/
theorem ref_entry (x0 : (⟨S100000x128, .f32⟩ : BufTy).Contents (Elt Ideal)) (x1 : (⟨S2x600000, .i32⟩ : BufTy).Contents (Elt Ideal)) (x2 : (⟨S64x128, .f32⟩ : BufTy).Contents (Elt Ideal)) (x3 : (⟨S64, .f32⟩ : BufTy).Contents (Elt Ideal)) (x4 : (⟨S64x128, .f32⟩ : BufTy).Contents (Elt Ideal)) (x5 : (⟨S32x64, .f32⟩ : BufTy).Contents (Elt Ideal)) (x6 : (⟨S32, .f32⟩ : BufTy).Contents (Elt Ideal)) (x7 : (⟨S32x64, .f32⟩ : BufTy).Contents (Elt Ideal)) (n : Fin 100000) (c : Fin 32) :
    Read.val_main_v62 (F := Ideal) x0 x1 x2 x3 x4 x5 x6 x7 (ix2 n c)
      = Cert.Sage.layerA (srcRow x1) (dstSeg x1)
          (fun a k => max (Cert.Sage.layerA (srcRow x1) (dstSeg x1) (fun a' k' => x0 (ix2 a' k'))
            (fun c' k' => x2 (ix2 c' k')) (fun c' k' => x4 (ix2 c' k')) (fun c' => x3 (ix1 c')) a k) 0)
          (fun c' k' => x5 (ix2 c' k')) (fun c' k' => x7 (ix2 c' k')) (fun c' => x6 (ix1 c')) n c := by
  have hX : (fun (a' : Fin 100000) (k' : Fin 64) => Read.val_main_v31 (F := Ideal) x0 x1 x2 x3 x4 (ix2 a' k'))
      = fun a k => max (Cert.Sage.layerA (srcRow x1) (dstSeg x1) (fun a' k' => x0 (ix2 a' k'))
          (fun c' k' => x2 (ix2 c' k')) (fun c' k' => x4 (ix2 c' k')) (fun c' => x3 (ix1 c')) a k) 0 :=
    funext fun a => funext fun k => relu1_apply x0 x1 x2 x3 x4 a k
  rw [layer2_apply, hX]

end Cert.ReferenceIdeal.RefEntry

end
-- ==== Proof.LibFiniteEntry.lean ====
/-
  General facts about the printed test "every entry of a float array has absolute value below +∞", read at the ideal
  values, where a float is an extended real.

  * The f32 pattern 0x7F800000 denotes +∞.
  * An extended real whose absolute value max(x, -x) is below +∞ is neither infinity, hence a real number.
  * A strict comparison of extended reals that came out true is the strict inequality.
  * So one entry of the printed test `|a| < +∞` (the array's absolute value compared, entry by entry, with the
    broadcast +∞ pattern) that came out true says that entry of `a` is a real number — at any shape.
-/
import Idealize.ShloMosaic.PureOps.Ideal.Laws
import Idealize.ShloMosaic.Lib.ValueIdx

noncomputable section

namespace Cert.LibFiniteEntry

open Idealize.ShloMosaic

/-- The f32 pattern of +∞ denotes +∞. -/
theorem ofBits_inf_f32 : Ideal.ofBits .f32 0x7F800000#32 = ⊤ := by
  simp [Ideal.ofBits, Ideal.ieee]

/-- An extended real whose absolute value is below +∞ is a real. -/
theorem real_of_abs_lt_top (x : EReal) (h : max x (-x) < ⊤) : ∃ r : ℝ, x = (r : EReal) := by
  have hb : x ≠ ⊥ := by
    rintro rfl
    rw [EReal.neg_bot, max_eq_right bot_le] at h
    exact lt_irrefl _ h
  have ht : x ≠ ⊤ := by
    rintro rfl
    rw [EReal.neg_top, max_eq_left bot_le] at h
    exact lt_irrefl _ h
  exact ⟨x.toReal, (EReal.coe_toReal ht hb).symm⟩

/-- A strict comparison of extended reals that came out true. -/
theorem lt_of_cmp_olt {x y : EReal} (h : Ideal.cmp .olt x y = 1#1) : x < y := by
  by_contra hn
  have h0 : Ideal.cmp .olt x y = 0#1 := by simp [Ideal.cmp, hn]
  rw [h0] at h
  exact absurd h (by decide)

/-- One entry of the printed test `|a| < +∞` that came out true: that entry of `a` is a real. -/
theorem real_of_finite_test {s : Shape} (a : FVec Ideal s .f32) (hb : (⟨0, ![]⟩ : Shape).BroadcastsInDim s ![]) (j : s.Idx)
    (h : cmpf .olt (Host.absf a) (broadcastInDim s ![] hb (constant (F := Ideal) ⟨0, ![]⟩ .f32 0x7F800000#32)) j = 1#1) :
    ∃ r : ℝ, a j = (r : EReal) := by
  have hlt : max (a j) (-(a j)) < Ideal.ofBits .f32 0x7F800000#32 := lt_of_cmp_olt h
  rw [ofBits_inf_f32] at hlt
  exact real_of_abs_lt_top _ hlt

end Cert.LibFiniteEntry

end
-- ==== Proof.RealArgs.lean ====
/-
  The precondition of the claim is a conjunction of seven tests, one per float argument: every entry of the
  argument has absolute value strictly below +∞. Read at the ideal values, where a float is an extended real, an
  extended real whose absolute value is below +∞ is neither infinity, so it is a real number. This module unpacks
  the conjunction and the seven "for all entries" reductions and concludes that every entry of every float
  argument is a real number.
-/
import proofs.«145483_j81544249081903_2_alg».proof.Pre_finite_inputs
import proofs.«145483_j81544249081903_2_alg».proof.Proof.Gen.Pre_finite_inputs
import proofs.«145483_j81544249081903_2_alg».proof.Proof.LibFiniteEntry
import Idealize.ShloMosaic.Lib.ReduceAll
import Idealize.ShloMosaic.Lib.ValueIdx
import Idealize.ShloMosaic.PureOps.Ideal.Laws

noncomputable section

namespace Cert.RealArgs

open Idealize.ShloMosaic Idealize.ShloMosaic.ValueIdx
open Cert.Pre_finite_inputs

/-- The rank-0 shape has exactly one index (the empty tuple of coordinates). -/
instance subsingleton_scalar_idx : Subsingleton S_.Idx := ⟨fun a b => funext fun d => d.elim0⟩

/-- An entrywise "and" of two arrays of truth values that is true at an index: both are true there. -/
theorem both_of_andi {s : Shape} (x y : IVec s 1) (i : s.Idx) (h : andi x y i = 1#1) : x i = 1#1 ∧ y i = 1#1 :=
  IntOp.andi_eq_one.1 h

/-- One argument's test: the conjunction over ALL entries of "|a| < +∞" came out true, so every entry of `a` is
    a real number. (The conjunction over all axes being true makes the entrywise test true at each index; a true
    entrywise test says that entry's absolute value is below +∞, hence the entry is neither infinity.) -/
theorem real_of_all {s : Shape} {axes : List (Fin s.rank)} (a : FVec Ideal s .f32)
    (hb : S_.BroadcastsInDim s ![]) (hr : s.ReducesTo axes S_) (hu : 0 < S_.numel) (init : IVec S_ 1) (j0 : S_.Idx)
    (e : Host.reduce IntOp.andi
          (cmpf .olt (Host.absf a) (broadcastInDim s ![] hb (constant (F := Ideal) S_ .f32 0x7F800000#32)))
          init hr hu j0 = 1#1) :
    ∀ j, ∃ r : ℝ, a j = (r : EReal) := fun j =>
  Cert.LibFiniteEntry.real_of_finite_test a hb j (Host.reduce_andi_all _ init hr hu j0 e j)

/-- The precondition, at the ideal values, makes every entry of each of the seven float arguments a real number.
    The precondition's value at the one index of the rank-0 result is a left-nested conjunction
    ((((((t0 ∧ t2) ∧ t3) ∧ t4) ∧ t5) ∧ t6) ∧ t7) of the seven per-argument tests; each is decoded by `real_of_all`. -/
theorem real_args [Cert.Pre_finite_inputs.Facts]
    (x0 : FVec Ideal S100000x128 .f32) (x1 : IVec S2x600000 32) (x2 : FVec Ideal S64x128 .f32)
    (x3 : FVec Ideal S64 .f32) (x4 : FVec Ideal S64x128 .f32) (x5 : FVec Ideal S32x64 .f32)
    (x6 : FVec Ideal S32 .f32) (x7 : FVec Ideal S32x64 .f32)
    (h : Cert.Pre_finite_inputs.fn (F := Ideal) x0 x1 x2 x3 x4 x5 x6 x7 = fun _ => 1#1) :
    (∀ j, ∃ r : ℝ, x0 j = (r : EReal)) ∧ (∀ j, ∃ r : ℝ, x2 j = (r : EReal)) ∧ (∀ j, ∃ r : ℝ, x3 j = (r : EReal)) ∧
    (∀ j, ∃ r : ℝ, x4 j = (r : EReal)) ∧ (∀ j, ∃ r : ℝ, x5 j = (r : EReal)) ∧ (∀ j, ∃ r : ℝ, x6 j = (r : EReal)) ∧
    (∀ j, ∃ r : ℝ, x7 j = (r : EReal)) := by
  have e := congrFun h ix0
  unfold Cert.Pre_finite_inputs.fn Cert.Pre_finite_inputs.fn_part1 at e
  dsimp only at e
  obtain ⟨e, t7⟩ := both_of_andi _ _ _ e
  obtain ⟨e, t6⟩ := both_of_andi _ _ _ e
  obtain ⟨e, t5⟩ := both_of_andi _ _ _ e
  obtain ⟨e, t4⟩ := both_of_andi _ _ _ e
  obtain ⟨e, t3⟩ := both_of_andi _ _ _ e
  obtain ⟨t0, t2⟩ := both_of_andi _ _ _ e
  exact ⟨real_of_all x0 _ _ _ _ _ t0, real_of_all x2 _ _ _ _ _ t2, real_of_all x3 _ _ _ _ _ t3,
    real_of_all x4 _ _ _ _ _ t4, real_of_all x5 _ _ _ _ _ t5, real_of_all x6 _ _ _ _ _ t6,
    real_of_all x7 _ _ _ _ _ t7⟩

end Cert.RealArgs

end
-- ==== Proof.lean ====
/-
  The claim: the pipelined two-layer mean-aggregating graph convolution equals its plain reference at the exact values.

  The kernel projects each layer's node features through the layer's weights BEFORE gathering rows along the edges and
  summing them per destination node, and scales the sum by the reciprocal of the node's divisor; the reference
  gathers and sums the raw feature rows, divides by the divisor, and multiplies by the weights afterwards. Entry by
  entry the kernel's result array is the project-first arrangement of the two-layer network of the argument arrays
  (read off the run boundary by boundary), the reference's result is the aggregate-first arrangement (read operation
  by operation), and both use the same source rows, the same destination segments and the same divisors, all
  computed from the edge list alone. The precondition makes every float argument entry a real number, and on real
  entries the two arrangements agree: distributivity and the exchange of the two finite sums hold there, and the
  divisor is a real at least one. The word-level kernel's frame, the idealized kernel's frame and the reference's
  frame are their runs with the result dropped; the idealization rewrote no operation, so nothing is owed for it.
-/
import proofs.«145483_j81544249081903_2_alg».proof.Defs
import proofs.«145483_j81544249081903_2_alg».proof.Proof.Gen.Kernel
import proofs.«145483_j81544249081903_2_alg».proof.Proof.Gen.Kernel.Skeleton
import proofs.«145483_j81544249081903_2_alg».proof.Proof.Gen.Kernel.Launch
import proofs.«145483_j81544249081903_2_alg».proof.Proof.Gen.Kernel.Points
import proofs.«145483_j81544249081903_2_alg».proof.Proof.Gen.Kernel.Frame
import proofs.«145483_j81544249081903_2_alg».proof.Proof.Gen.KernelIdeal
import proofs.«145483_j81544249081903_2_alg».proof.Proof.Gen.KernelIdeal.Skeleton
import proofs.«145483_j81544249081903_2_alg».proof.Proof.Gen.KernelIdeal.Launch
import proofs.«145483_j81544249081903_2_alg».proof.Proof.Gen.KernelIdeal.Points
import proofs.«145483_j81544249081903_2_alg».proof.Proof.Gen.KernelIdeal.Frame
import proofs.«145483_j81544249081903_2_alg».proof.Proof.Gen.ReferenceIdeal
import proofs.«145483_j81544249081903_2_alg».proof.Proof.Gen.ReferenceIdeal.Run
import proofs.«145483_j81544249081903_2_alg».proof.Proof.Gen.ReferenceIdeal.Read
import proofs.«145483_j81544249081903_2_alg».proof.Proof.Gen.Pre_finite_inputs
import proofs.«145483_j81544249081903_2_alg».proof.Proof.KernelRun
import proofs.«145483_j81544249081903_2_alg».proof.Proof.KernelEntry
import proofs.«145483_j81544249081903_2_alg».proof.Proof.RefEntry
import proofs.«145483_j81544249081903_2_alg».proof.Proof.RealArgs
import Idealize.ShloMosaic.Adequacy
import Idealize.ShloMosaic.Init

set_option maxRecDepth 16384

noncomputable section

namespace Cert.Proof

open Idealize.ShloMosaic Idealize.ShloMosaic.ValueIdx Idealize.ShloMosaic.TcCoe Idealize.SL.Sem

/-- The word-level kernel runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The reference's column of gather rows is the kernel's: the same operations of the edge list. -/
theorem srcRow_eq (e : IVec Cert.KernelIdeal.S2x600000 32) :
    Cert.ReferenceIdeal.RefEntry.srcRow e = Cert.KernelIdeal.Entries.rowOfEdge (Cert.KernelIdeal.Stretches.srcVec e) := rfl

/-- The reference's column of scatter segments is the kernel's. -/
theorem dstSeg_eq (e : IVec Cert.KernelIdeal.S2x600000 32) :
    Cert.ReferenceIdeal.RefEntry.dstSeg e = Cert.KernelIdeal.Entries.segOfEdge (Cert.KernelIdeal.Stretches.dstVec e) := rfl

/-- THE TWO RESULT ARRAYS AGREE. From the same launch contents of the arguments, every float entry a real number, the
    reference's result (the aggregate-first network, entry by entry) is the kernel's (the project-first network). -/
theorem result_eq (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (r0 : ∀ j, ∃ r : ℝ, (m ((c.tc : Thread Cert.KernelIdeal.nD Cert.KernelIdeal.τ).loc Cert.KernelIdeal.main_arg0)) j = (r : EReal)) (r2 : ∀ j, ∃ r : ℝ, (m ((c.tc : Thread Cert.KernelIdeal.nD Cert.KernelIdeal.τ).loc Cert.KernelIdeal.main_arg2)) j = (r : EReal))
    (r3 : ∀ j, ∃ r : ℝ, (m ((c.tc : Thread Cert.KernelIdeal.nD Cert.KernelIdeal.τ).loc Cert.KernelIdeal.main_arg3)) j = (r : EReal)) (r4 : ∀ j, ∃ r : ℝ, (m ((c.tc : Thread Cert.KernelIdeal.nD Cert.KernelIdeal.τ).loc Cert.KernelIdeal.main_arg4)) j = (r : EReal))
    (r5 : ∀ j, ∃ r : ℝ, (m ((c.tc : Thread Cert.KernelIdeal.nD Cert.KernelIdeal.τ).loc Cert.KernelIdeal.main_arg5)) j = (r : EReal)) (r6 : ∀ j, ∃ r : ℝ, (m ((c.tc : Thread Cert.KernelIdeal.nD Cert.KernelIdeal.τ).loc Cert.KernelIdeal.main_arg6)) j = (r : EReal))
    (r7 : ∀ j, ∃ r : ℝ, (m ((c.tc : Thread Cert.KernelIdeal.nD Cert.KernelIdeal.τ).loc Cert.KernelIdeal.main_arg7)) j = (r : EReal)) :
    Cert.ReferenceIdeal.Read.val_main_v62 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      = Cert.KernelIdeal.Gen.W8 m ρ c (Proc.devRef .tc Cert.KernelIdeal.main_v50) := by
  funext j
  obtain ⟨p, q, rfl⟩ : ∃ (p : Fin 100000) (q : Fin 32), j = ix2 p q := ⟨j 0, j 1, eq_ix2 j⟩
  rw [Cert.ReferenceIdeal.RefEntry.ref_entry, srcRow_eq, dstSeg_eq]
  exact (Cert.Sage.net_eq _ _ _ _ _ _ _ _ _
    (fun a k => r0 (ix2 a k)) (fun a k => r2 (ix2 a k)) (fun a k => r4 (ix2 a k)) (fun a => r3 (ix1 a))
    (fun a k => r5 (ix2 a k)) (fun a k => r7 (ix2 a k)) (fun a => r6 (ix1 a)) p q).symm.trans
    (Cert.KernelIdeal.KernelEntry.kernel_entry m ρ c p q).symm

/-- At the exact values the idealized kernel and the reference, run from memories agreeing on the arguments, end
    with the same result array: the kernel's run names its result, the reference's run names its own, the agreement of
    the memories carries the reference's arguments over, and the precondition makes the float entries real. -/
theorem algebraic : Cert.algebraic_KernelIdeal_ReferenceIdeal := by
  intro m ρ m' ρ' hpre hagree
  refine ⟨fun c => Cert.KernelIdeal.Gen.W8 m ρ c (Proc.devRef .tc Cert.KernelIdeal.main_v50),
    Cert.KernelIdeal.KernelRun.run_result m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  obtain ⟨r0, r2, r3, r4, r5, r6, r7⟩ := Cert.RealArgs.real_args _ _ _ _ _ _ _ _ (hpre c)
  rw [Cert.ReferenceIdeal.Read.val_main_v62_eq, a0, a1, a2, a3, a4, a5, a6, a7]
  exact result_eq m ρ c r0 r2 r3 r4 r5 r6 r7

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
